-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x25 : Shape := ⟨2, ![2097152, 25]⟩
abbrev S_ : Shape := ⟨0, ![]⟩

class Facts : Prop where
  bcast_S_S2097152x25 : S_.BroadcastsInDim S2097152x25 (![] : Fin 0 → Fin S2097152x25.rank)
  reducesTo_S2097152x25_S_d0_1 : S2097152x25.ReducesTo [0, 1] S_
  h_S_ : 0 < S_.numel

variable [Facts]

def fn {F : FTy → Type} [FloatOps F] (main_arg0 : FVec F S2097152x25 .f32) : IVec S_ 1 :=
  let main_v0 : FVec F S2097152x25 .f32 := Host.absf main_arg0
  let main_cst : FVec F S_ .f32 := constant S_ .f32 0x7F800000#32
  let main_v1 : FVec F S2097152x25 .f32 := broadcastInDim S2097152x25 ![] bcast_S_S2097152x25 main_cst
  let main_v2 : IVec S2097152x25 1 := cmpf .olt main_v0 main_v1
  let main_c : IVec S_ 1 := constantI S_ 1 1#1
  let main_v3 : IVec S_ 1 := (fun x v => Host.reduce IntOp.andi x v reducesTo_S2097152x25_S_d0_1 h_S_) main_v2 main_c
  main_v3
-- ==== Kernel.lean ====
abbrev S2097152x25 : Shape := ⟨2, ![2097152, 25]⟩
abbrev S8192x25 : Shape := ⟨2, ![8192, 25]⟩
abbrev S25x8192 : Shape := ⟨2, ![25, 8192]⟩
abbrev S1x8192 : Shape := ⟨2, ![1, 8192]⟩
abbrev S23x8192 : Shape := ⟨2, ![23, 8192]⟩
abbrev S2x8192 : Shape := ⟨2, ![2, 8192]⟩
abbrev S22x8192 : Shape := ⟨2, ![22, 8192]⟩
abbrev S3x8192 : Shape := ⟨2, ![3, 8192]⟩
abbrev S21x8192 : Shape := ⟨2, ![21, 8192]⟩
abbrev S4x8192 : Shape := ⟨2, ![4, 8192]⟩
abbrev S20x8192 : Shape := ⟨2, ![20, 8192]⟩
abbrev S5x8192 : Shape := ⟨2, ![5, 8192]⟩
abbrev S19x8192 : Shape := ⟨2, ![19, 8192]⟩
abbrev S6x8192 : Shape := ⟨2, ![6, 8192]⟩
abbrev S18x8192 : Shape := ⟨2, ![18, 8192]⟩
abbrev S7x8192 : Shape := ⟨2, ![7, 8192]⟩
abbrev S17x8192 : Shape := ⟨2, ![17, 8192]⟩
abbrev S8x8192 : Shape := ⟨2, ![8, 8192]⟩
abbrev S16x8192 : Shape := ⟨2, ![16, 8192]⟩
abbrev S9x8192 : Shape := ⟨2, ![9, 8192]⟩
abbrev S15x8192 : Shape := ⟨2, ![15, 8192]⟩
abbrev S10x8192 : Shape := ⟨2, ![10, 8192]⟩
abbrev S14x8192 : Shape := ⟨2, ![14, 8192]⟩
abbrev S11x8192 : Shape := ⟨2, ![11, 8192]⟩
abbrev S13x8192 : Shape := ⟨2, ![13, 8192]⟩
abbrev S12x8192 : Shape := ⟨2, ![12, 8192]⟩

abbrev nBuf : Space → Nat
  | .hbm => 2
  | .vmem => 4
  | .smem => 0
  | _ => 0

abbrev bufTy : (tb : Table) → Fin (tcTables nBuf tb) → BufTy
  | .hbm, ⟨0, _⟩ => ⟨S2097152x25, .f32⟩
  | .hbm, ⟨1, _⟩ => ⟨S2097152x25, .f32⟩
  | .local _ .vmem, ⟨0, _⟩ => ⟨S8192x25, .f32⟩
  | .local _ .vmem, ⟨1, _⟩ => ⟨S8192x25, .f32⟩
  | .local _ .vmem, ⟨2, _⟩ => ⟨S8192x25, .f32⟩
  | .local _ .vmem, ⟨3, _⟩ => ⟨S8192x25, .f32⟩
  | _, _ => ⟨S2097152x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8192x25_S8192x25_0_0 : ∀ a, (![0, 0] : Fin 2 → Nat) a + S8192x25.size a ≤ S8192x25.size a
  h_S8192x25 : 0 < S8192x25.numel
  transposes_S8192x25_p1_0_S25x8192 : S8192x25.Transposes [1, 0] S25x8192
  slices_S25x8192_o1_0_S1x8192 : S25x8192.Slices ![1, 0] S1x8192
  slices_S25x8192_o2_0_S1x8192 : S25x8192.Slices ![2, 0] S1x8192
  slices_S25x8192_o0_0_S1x8192 : S25x8192.Slices ![0, 0] S1x8192
  slices_S25x8192_o2_0_S23x8192 : S25x8192.Slices ![2, 0] S23x8192
  concatenates_S1x8192_S1x8192_S23x8192_S25x8192_d0 : Shape.Concatenates [S1x8192, S1x8192, S23x8192] S25x8192 0
  slices_S25x8192_o1_0_S2x8192 : S25x8192.Slices ![1, 0] S2x8192
  concatenates_S1x8192_S1x8192_S2x8192_d0 : Shape.Concatenates [S1x8192, S1x8192] S2x8192 0
  slices_S25x8192_o3_0_S1x8192 : S25x8192.Slices ![3, 0] S1x8192
  broadcasts_S1x8192_S2x8192 : S1x8192.Broadcasts S2x8192
  slices_S25x8192_o3_0_S22x8192 : S25x8192.Slices ![3, 0] S22x8192
  concatenates_S1x8192_S2x8192_S22x8192_S25x8192_d0 : Shape.Concatenates [S1x8192, S2x8192, S22x8192] S25x8192 0
  slices_S25x8192_o1_0_S3x8192 : S25x8192.Slices ![1, 0] S3x8192
  concatenates_S1x8192_S1x8192_S1x8192_S3x8192_d0 : Shape.Concatenates [S1x8192, S1x8192, S1x8192] S3x8192 0
  slices_S25x8192_o4_0_S1x8192 : S25x8192.Slices ![4, 0] S1x8192
  broadcasts_S1x8192_S3x8192 : S1x8192.Broadcasts S3x8192
  slices_S25x8192_o4_0_S21x8192 : S25x8192.Slices ![4, 0] S21x8192
  concatenates_S1x8192_S3x8192_S21x8192_S25x8192_d0 : Shape.Concatenates [S1x8192, S3x8192, S21x8192] S25x8192 0
  slices_S25x8192_o1_0_S4x8192 : S25x8192.Slices ![1, 0] S4x8192
  concatenates_S1x8192_S1x8192_S1x8192_S1x8192_S4x8192_d0 : Shape.Concatenates [S1x8192, S1x8192, S1x8192, S1x8192] S4x8192 0
  slices_S25x8192_o5_0_S1x8192 : S25x8192.Slices ![5, 0] S1x8192
  broadcasts_S1x8192_S4x8192 : S1x8192.Broadcasts S4x8192
  slices_S25x8192_o5_0_S20x8192 : S25x8192.Slices ![5, 0] S20x8192
  concatenates_S1x8192_S4x8192_S20x8192_S25x8192_d0 : Shape.Concatenates [S1x8192, S4x8192, S20x8192] S25x8192 0
  slices_S25x8192_o1_0_S5x8192 : S25x8192.Slices ![1, 0] S5x8192
  concatenates_S1x8192_S1x8192_S1x8192_S1x8192_S1x8192_S5x8192_d0 : Shape.Concatenates [S1x8192, S1x8192, S1x8192, S1x8192, S1x8192] S5x8192 0
  slices_S25x8192_o6_0_S1x8192 : S25x8192.Slices ![6, 0] S1x8192
  broadcasts_S1x8192_S5x8192 : S1x8192.Broadcasts S5x8192
  slices_S25x8192_o6_0_S19x8192 : S25x8192.Slices ![6, 0] S19x8192
  concatenates_S1x8192_S5x8192_S19x8192_S25x8192_d0 : Shape.Concatenates [S1x8192, S5x8192, S19x8192] S25x8192 0
  slices_S25x8192_o1_0_S6x8192 : S25x8192.Slices ![1, 0] S6x8192
  concatenates_S1x8192_S1x8192_S1x8192_S1x8192_S1x8192_S1x8192_S6x8192_d0 : Shape.Concatenates [S1x8192, S1x8192, S1x8192, S1x8192, S1x8192, S1x8192] S6x8192 0
  slices_S25x8192_o7_0_S1x8192 : S25x8192.Slices ![7, 0] S1x8192
  broadcasts_S1x8192_S6x8192 : S1x8192.Broadcasts S6x8192
  slices_S25x8192_o7_0_S18x8192 : S25x8192.Slices ![7, 0] S18x8192
  concatenates_S1x8192_S6x8192_S18x8192_S25x8192_d0 : Shape.Concatenates [S1x8192, S6x8192, S18x8192] S25x8192 0
  slices_S25x8192_o1_0_S7x8192 : S25x8192.Slices ![1, 0] S7x8192
  concatenates_S1x8192_S1x8192_S1x8192_S1x8192_S1x8192_S1x8192_S1x8192_S7x8192_d0 : Shape.Concatenates [S1x8192, S1x8192, S1x8192, S1x8192, S1x8192, S1x8192, S1x8192] S7x8192 0
  slices_S25x8192_o8_0_S1x8192 : S25x8192.Slices ![8, 0] S1x8192
  broadcasts_S1x8192_S7x8192 : S1x8192.Broadcasts S7x8192
  slices_S25x8192_o8_0_S17x8192 : S25x8192.Slices ![8, 0] S17x8192
  concatenates_S1x8192_S7x8192_S17x8192_S25x8192_d0 : Shape.Concatenates [S1x8192, S7x8192, S17x8192] S25x8192 0
  slices_S25x8192_o1_0_S8x8192 : S25x8192.Slices ![1, 0] S8x8192
  concatenates_S1x8192_S1x8192_S1x8192_S1x8192_S1x8192_S1x8192_S1x8192_S1x8192_S8x8192_d0 : Shape.Concatenates [S1x8192, S1x8192, S1x8192, S1x8192, S1x8192, S1x8192, S1x8192, S1x8192] S8x8192 0
  slices_S25x8192_o9_0_S1x8192 : S25x8192.Slices ![9, 0] S1x8192
  broadcasts_S1x8192_S8x8192 : S1x8192.Broadcasts S8x8192
  slices_S25x8192_o9_0_S16x8192 : S25x8192.Slices ![9, 0] S16x8192
  concatenates_S1x8192_S8x8192_S16x8192_S25x8192_d0 : Shape.Concatenates [S1x8192, S8x8192, S16x8192] S25x8192 0
  slices_S25x8192_o1_0_S9x8192 : S25x8192.Slices ![1, 0] S9x8192
  concatenates_S1x8192_S1x8192_S1x8192_S1x8192_S1x8192_S1x8192_S1x8192_S1x8192_S1x8192_S9x8192_d0 : Shape.Concatenates [S1x8192, S1x8192, S1x8192, S1x8192, S1x8192, S1x8192, S1x8192, S1x8192, S1x8192] S9x8192 0
  slices_S25x8192_o10_0_S1x8192 : S25x8192.Slices ![10, 0] S1x8192
  broadcasts_S1x8192_S9x8192 : S1x8192.Broadcasts S9x8192
  slices_S25x8192_o10_0_S15x8192 : S25x8192.Slices ![10, 0] S15x8192
  concatenates_S1x8192_S9x8192_S15x8192_S25x8192_d0 : Shape.Concatenates [S1x8192, S9x8192, S15x8192] S25x8192 0
  slices_S25x8192_o1_0_S10x8192 : S25x8192.Slices ![1, 0] S10x8192
  concatenates_S1x8192_S1x8192_S1x8192_S1x8192_S1x8192_S1x8192_S1x8192_S1x8192_S1x8192_S1x8192_S10x8192_d0 : Shape.Concatenates [S1x8192, S1x8192, S1x8192, S1x8192, S1x8192, S1x8192, S1x8192, S1x8192, S1x8192, S1x8192] S10x8192 0
  slices_S25x8192_o11_0_S1x8192 : S25x8192.Slices ![11, 0] S1x8192
  broadcasts_S1x8192_S10x8192 : S1x8192.Broadcasts S10x8192
  slices_S25x8192_o11_0_S14x8192 : S25x8192.Slices ![11, 0] S14x8192
  concatenates_S1x8192_S10x8192_S14x8192_S25x8192_d0 : Shape.Concatenates [S1x8192, S10x8192, S14x8192] S25x8192 0
  slices_S25x8192_o1_0_S11x8192 : S25x8192.Slices ![1, 0] S11x8192
  concatenates_S1x8192_S1x8192_S1x8192_S1x8192_S1x8192_S1x8192_S1x8192_S1x8192_S1x8192_S1x8192_S1x8192_S11x8192_d0 : Shape.Concatenates [S1x8192, S1x8192, S1x8192, S1x8192, S1x8192, S1x8192, S1x8192, S1x8192, S1x8192, S1x8192, S1x8192] S11x8192 0
  slices_S25x8192_o12_0_S1x8192 : S25x8192.Slices ![12, 0] S1x8192
  broadcasts_S1x8192_S11x8192 : S1x8192.Broadcasts S11x8192
  slices_S25x8192_o12_0_S13x8192 : S25x8192.Slices ![12, 0] S13x8192
  concatenates_S1x8192_S11x8192_S13x8192_S25x8192_d0 : Shape.Concatenates [S1x8192, S11x8192, S13x8192] S25x8192 0
  slices_S25x8192_o1_0_S12x8192 : S25x8192.Slices ![1, 0] S12x8192
  concatenates_S1x8192_S1x8192_S1x8192_S1x8192_S1x8192_S1x8192_S1x8192_S1x8192_S1x8192_S1x8192_S1x8192_S1x8192_S12x8192_d0 : Shape.Concatenates [S1x8192, S1x8192, S1x8192, S1x8192, S1x8192, S1x8192, S1x8192, S1x8192, S1x8192, S1x8192, S1x8192, S1x8192] S12x8192 0
  slices_S25x8192_o13_0_S1x8192 : S25x8192.Slices ![13, 0] S1x8192
  broadcasts_S1x8192_S12x8192 : S1x8192.Broadcasts S12x8192
  slices_S25x8192_o13_0_S12x8192 : S25x8192.Slices ![13, 0] S12x8192
  concatenates_S1x8192_S12x8192_S12x8192_S25x8192_d0 : Shape.Concatenates [S1x8192, S12x8192, S12x8192] S25x8192 0
  slices_S25x8192_o1_0_S13x8192 : S25x8192.Slices ![1, 0] S13x8192
  concatenates_S1x8192_S1x8192_S1x8192_S1x8192_S1x8192_S1x8192_S1x8192_S1x8192_S1x8192_S1x8192_S1x8192_S1x8192_S1x8192_S13x8192_d0 : Shape.Concatenates [S1x8192, S1x8192, S1x8192, S1x8192, S1x8192, S1x8192, S1x8192, S1x8192, S1x8192, S1x8192, S1x8192, S1x8192, S1x8192] S13x8192 0
  slices_S25x8192_o14_0_S1x8192 : S25x8192.Slices ![14, 0] S1x8192
  broadcasts_S1x8192_S13x8192 : S1x8192.Broadcasts S13x8192
  slices_S25x8192_o14_0_S11x8192 : S25x8192.Slices ![14, 0] S11x8192
  concatenates_S1x8192_S13x8192_S11x8192_S25x8192_d0 : Shape.Concatenates [S1x8192, S13x8192, S11x8192] S25x8192 0
  slices_S25x8192_o1_0_S14x8192 : S25x8192.Slices ![1, 0] S14x8192
  concatenates_S1x8192_S1x8192_S1x8192_S1x8192_S1x8192_S1x8192_S1x8192_S1x8192_S1x8192_S1x8192_S1x8192_S1x8192_S1x8192_S1x8192_S14x8192_d0 : Shape.Concatenates [S1x8192, S1x8192, S1x8192, S1x8192, S1x8192, S1x8192, S1x8192, S1x8192, S1x8192, S1x8192, S1x8192, S1x8192, S1x8192, S1x8192] S14x8192 0
  slices_S25x8192_o15_0_S1x8192 : S25x8192.Slices ![15, 0] S1x8192
  broadcasts_S1x8192_S14x8192 : S1x8192.Broadcasts S14x8192
  slices_S25x8192_o15_0_S10x8192 : S25x8192.Slices ![15, 0] S10x8192
  concatenates_S1x8192_S14x8192_S10x8192_S25x8192_d0 : Shape.Concatenates [S1x8192, S14x8192, S10x8192] S25x8192 0
  slices_S25x8192_o1_0_S15x8192 : S25x8192.Slices ![1, 0] S15x8192
  concatenates_S1x8192_S1x8192_S1x8192_S1x8192_S1x8192_S1x8192_S1x8192_S1x8192_S1x8192_S1x8192_S1x8192_S1x8192_S1x8192_S1x8192_S1x8192_S15x8192_d0 : Shape.Concatenates [S1x8192, S1x8192, S1x8192, S1x8192, S1x8192, S1x8192, S1x8192, S1x8192, S1x8192, S1x8192, S1x8192, S1x8192, S1x8192, S1x8192, S1x8192] S15x8192 0
  slices_S25x8192_o16_0_S1x8192 : S25x8192.Slices ![16, 0] S1x8192
  broadcasts_S1x8192_S15x8192 : S1x8192.Broadcasts S15x8192
  slices_S25x8192_o16_0_S9x8192 : S25x8192.Slices ![16, 0] S9x8192
  concatenates_S1x8192_S15x8192_S9x8192_S25x8192_d0 : Shape.Concatenates [S1x8192, S15x8192, S9x8192] S25x8192 0
  slices_S25x8192_o1_0_S16x8192 : S25x8192.Slices ![1, 0] S16x8192
  concatenates_S1x8192_S1x8192_S1x8192_S1x8192_S1x8192_S1x8192_S1x8192_S1x8192_S1x8192_S1x8192_S1x8192_S1x8192_S1x8192_S1x8192_S1x8192_S1x8192_S16x8192_d0 : Shape.Concatenates [S1x8192, S1x8192, S1x8192, S1x8192, S1x8192, S1x8192, S1x8192, S1x8192, S1x8192, S1x8192, S1x8192, S1x8192, S1x8192, S1x8192, S1x8192, S1x8192] S16x8192 0
  slices_S25x8192_o17_0_S1x8192 : S25x8192.Slices ![17, 0] S1x8192
  broadcasts_S1x8192_S16x8192 : S1x8192.Broadcasts S16x8192
  slices_S25x8192_o17_0_S8x8192 : S25x8192.Slices ![17, 0] S8x8192
  concatenates_S1x8192_S16x8192_S8x8192_S25x8192_d0 : Shape.Concatenates [S1x8192, S16x8192, S8x8192] S25x8192 0
  slices_S25x8192_o1_0_S17x8192 : S25x8192.Slices ![1, 0] S17x8192
  concatenates_S1x8192_S1x8192_S1x8192_S1x8192_S1x8192_S1x8192_S1x8192_S1x8192_S1x8192_S1x8192_S1x8192_S1x8192_S1x8192_S1x8192_S1x8192_S1x8192_S1x8192_S17x8192_d0 : Shape.Concatenates [S1x8192, S1x8192, S1x8192, S1x8192, S1x8192, S1x8192, S1x8192, S1x8192, S1x8192, S1x8192, S1x8192, S1x8192, S1x8192, S1x8192, S1x8192, S1x8192, S1x8192] S17x8192 0
  slices_S25x8192_o18_0_S1x8192 : S25x8192.Slices ![18, 0] S1x8192
  broadcasts_S1x8192_S17x8192 : S1x8192.Broadcasts S17x8192
  slices_S25x8192_o18_0_S7x8192 : S25x8192.Slices ![18, 0] S7x8192
  concatenates_S1x8192_S17x8192_S7x8192_S25x8192_d0 : Shape.Concatenates [S1x8192, S17x8192, S7x8192] S25x8192 0
  slices_S25x8192_o1_0_S18x8192 : S25x8192.Slices ![1, 0] S18x8192
  concatenates_S1x8192_S1x8192_S1x8192_S1x8192_S1x8192_S1x8192_S1x8192_S1x8192_S1x8192_S1x8192_S1x8192_S1x8192_S1x8192_S1x8192_S1x8192_S1x8192_S1x8192_S1x8192_S18x8192_d0 : Shape.Concatenates [S1x8192, S1x8192, S1x8192, S1x8192, S1x8192, S1x8192, S1x8192, S1x8192, S1x8192, S1x8192, S1x8192, S1x8192, S1x8192, S1x8192, S1x8192, S1x8192, S1x8192, S1x8192] S18x8192 0
  slices_S25x8192_o19_0_S1x8192 : S25x8192.Slices ![19, 0] S1x8192
  broadcasts_S1x8192_S18x8192 : S1x8192.Broadcasts S18x8192
  slices_S25x8192_o19_0_S6x8192 : S25x8192.Slices ![19, 0] S6x8192
  concatenates_S1x8192_S18x8192_S6x8192_S25x8192_d0 : Shape.Concatenates [S1x8192, S18x8192, S6x8192] S25x8192 0
  slices_S25x8192_o1_0_S19x8192 : S25x8192.Slices ![1, 0] S19x8192
  concatenates_S1x8192_S1x8192_S1x8192_S1x8192_S1x8192_S1x8192_S1x8192_S1x8192_S1x8192_S1x8192_S1x8192_S1x8192_S1x8192_S1x8192_S1x8192_S1x8192_S1x8192_S1x8192_S1x8192_S19x8192_d0 : Shape.Concatenates [S1x8192, S1x8192, S1x8192, S1x8192, S1x8192, S1x8192, S1x8192, S1x8192, S1x8192, S1x8192, S1x8192, S1x8192, S1x8192, S1x8192, S1x8192, S1x8192, S1x8192, S1x8192, S1x8192] S19x8192 0
  slices_S25x8192_o20_0_S1x8192 : S25x8192.Slices ![20, 0] S1x8192
  broadcasts_S1x8192_S19x8192 : S1x8192.Broadcasts S19x8192
  slices_S25x8192_o20_0_S5x8192 : S25x8192.Slices ![20, 0] S5x8192
  concatenates_S1x8192_S19x8192_S5x8192_S25x8192_d0 : Shape.Concatenates [S1x8192, S19x8192, S5x8192] S25x8192 0
  slices_S25x8192_o1_0_S20x8192 : S25x8192.Slices ![1, 0] S20x8192
  concatenates_S1x8192_S1x8192_S1x8192_S1x8192_S1x8192_S1x8192_S1x8192_S1x8192_S1x8192_S1x8192_S1x8192_S1x8192_S1x8192_S1x8192_S1x8192_S1x8192_S1x8192_S1x8192_S1x8192_S1x8192_S20x8192_d0 : Shape.Concatenates [S1x8192, S1x8192, S1x8192, S1x8192, S1x8192, S1x8192, S1x8192, S1x8192, S1x8192, S1x8192, S1x8192, S1x8192, S1x8192, S1x8192, S1x8192, S1x8192, S1x8192, S1x8192, S1x8192, S1x8192] S20x8192 0
  slices_S25x8192_o21_0_S1x8192 : S25x8192.Slices ![21, 0] S1x8192
  broadcasts_S1x8192_S20x8192 : S1x8192.Broadcasts S20x8192
  slices_S25x8192_o21_0_S4x8192 : S25x8192.Slices ![21, 0] S4x8192
  concatenates_S1x8192_S20x8192_S4x8192_S25x8192_d0 : Shape.Concatenates [S1x8192, S20x8192, S4x8192] S25x8192 0
  slices_S25x8192_o1_0_S21x8192 : S25x8192.Slices ![1, 0] S21x8192
  concatenates_S1x8192_S1x8192_S1x8192_S1x8192_S1x8192_S1x8192_S1x8192_S1x8192_S1x8192_S1x8192_S1x8192_S1x8192_S1x8192_S1x8192_S1x8192_S1x8192_S1x8192_S1x8192_S1x8192_S1x8192_S1x8192_S21x8192_d0 : Shape.Concatenates [S1x8192, S1x8192, S1x8192, S1x8192, S1x8192, S1x8192, S1x8192, S1x8192, S1x8192, S1x8192, S1x8192, S1x8192, S1x8192, S1x8192, S1x8192, S1x8192, S1x8192, S1x8192, S1x8192, S1x8192, S1x8192] S21x8192 0
  slices_S25x8192_o22_0_S1x8192 : S25x8192.Slices ![22, 0] S1x8192
  broadcasts_S1x8192_S21x8192 : S1x8192.Broadcasts S21x8192
  slices_S25x8192_o22_0_S3x8192 : S25x8192.Slices ![22, 0] S3x8192
  concatenates_S1x8192_S21x8192_S3x8192_S25x8192_d0 : Shape.Concatenates [S1x8192, S21x8192, S3x8192] S25x8192 0
  slices_S25x8192_o1_0_S22x8192 : S25x8192.Slices ![1, 0] S22x8192
  concatenates_S1x8192_S1x8192_S1x8192_S1x8192_S1x8192_S1x8192_S1x8192_S1x8192_S1x8192_S1x8192_S1x8192_S1x8192_S1x8192_S1x8192_S1x8192_S1x8192_S1x8192_S1x8192_S1x8192_S1x8192_S1x8192_S1x8192_S22x8192_d0 : Shape.Concatenates [S1x8192, S1x8192, S1x8192, S1x8192, S1x8192, S1x8192, S1x8192, S1x8192, S1x8192, S1x8192, S1x8192, S1x8192, S1x8192, S1x8192, S1x8192, S1x8192, S1x8192, S1x8192, S1x8192, S1x8192, S1x8192, S1x8192] S22x8192 0
  slices_S25x8192_o23_0_S1x8192 : S25x8192.Slices ![23, 0] S1x8192
  broadcasts_S1x8192_S22x8192 : S1x8192.Broadcasts S22x8192
  slices_S25x8192_o23_0_S2x8192 : S25x8192.Slices ![23, 0] S2x8192
  concatenates_S1x8192_S22x8192_S2x8192_S25x8192_d0 : Shape.Concatenates [S1x8192, S22x8192, S2x8192] S25x8192 0
  slices_S25x8192_o1_0_S23x8192 : S25x8192.Slices ![1, 0] S23x8192
  concatenates_S1x8192_S1x8192_S1x8192_S1x8192_S1x8192_S1x8192_S1x8192_S1x8192_S1x8192_S1x8192_S1x8192_S1x8192_S1x8192_S1x8192_S1x8192_S1x8192_S1x8192_S1x8192_S1x8192_S1x8192_S1x8192_S1x8192_S1x8192_S23x8192_d0 : Shape.Concatenates [S1x8192, S1x8192, S1x8192, S1x8192, S1x8192, S1x8192, S1x8192, S1x8192, S1x8192, S1x8192, S1x8192, S1x8192, S1x8192, S1x8192, S1x8192, S1x8192, S1x8192, S1x8192, S1x8192, S1x8192, S1x8192, S1x8192, S1x8192] S23x8192 0
  slices_S25x8192_o24_0_S1x8192 : S25x8192.Slices ![24, 0] S1x8192
  broadcasts_S1x8192_S23x8192 : S1x8192.Broadcasts S23x8192
  concatenates_S1x8192_S23x8192_S1x8192_S25x8192_d0 : Shape.Concatenates [S1x8192, S23x8192, S1x8192] S25x8192 0
  transposes_S25x8192_p1_0_S8192x25 : S25x8192.Transposes [1, 0] S8192x25
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x25.size a ≤ S2097152x25.size a
  hwx0_0 : ∀ i : grid0.Coords, EltTy.bits .f32 = 32 ∨ (Rect.block (s := S2097152x25) S8192x25.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x25.size a ≤ S2097152x25.size a
  hwx0_1 : ∀ i : grid0.Coords, EltTy.bits .f32 = 32 ∨ (Rect.block (s := S2097152x25) S8192x25.size (cc0_transform_1 i) (hinb0_1 i)).WholeWords (EltTy.packing .f32)

variable [Facts₀]

abbrev win0_0 : Pipeline.Window sig grid0 :=
  Pipeline.Window.ofSpec (Memref.whole main_arg0) S8192x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x25.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2097152x25 : Shape := ⟨2, ![2097152, 25]⟩
abbrev S2097152x1 : Shape := ⟨2, ![2097152, 1]⟩
abbrev S_ : Shape := ⟨0, ![]⟩
abbrev S1 : Shape := ⟨1, ![1]⟩
abbrev S2097152x2 : Shape := ⟨2, ![2097152, 2]⟩
abbrev S2097152x3 : Shape := ⟨2, ![2097152, 3]⟩
abbrev S2097152x4 : Shape := ⟨2, ![2097152, 4]⟩
abbrev S2097152x5 : Shape := ⟨2, ![2097152, 5]⟩
abbrev S2097152x6 : Shape := ⟨2, ![2097152, 6]⟩
abbrev S2097152x7 : Shape := ⟨2, ![2097152, 7]⟩
abbrev S2097152x8 : Shape := ⟨2, ![2097152, 8]⟩
abbrev S2097152x9 : Shape := ⟨2, ![2097152, 9]⟩
abbrev S2097152x10 : Shape := ⟨2, ![2097152, 10]⟩
abbrev S2097152x11 : Shape := ⟨2, ![2097152, 11]⟩
abbrev S2097152x12 : Shape := ⟨2, ![2097152, 12]⟩
abbrev S2097152x13 : Shape := ⟨2, ![2097152, 13]⟩
abbrev S2097152x14 : Shape := ⟨2, ![2097152, 14]⟩
abbrev S2097152x15 : Shape := ⟨2, ![2097152, 15]⟩
abbrev S2097152x16 : Shape := ⟨2, ![2097152, 16]⟩
abbrev S2097152x17 : Shape := ⟨2, ![2097152, 17]⟩
abbrev S2097152x18 : Shape := ⟨2, ![2097152, 18]⟩
abbrev S2097152x19 : Shape := ⟨2, ![2097152, 19]⟩
abbrev S2097152x20 : Shape := ⟨2, ![2097152, 20]⟩
abbrev S2097152x21 : Shape := ⟨2, ![2097152, 21]⟩
abbrev S2097152x22 : Shape := ⟨2, ![2097152, 22]⟩
abbrev S2097152x23 : Shape := ⟨2, ![2097152, 23]⟩

abbrev nBuf : Space → Nat
  | .hbm => 207
  | .vmem => 0
  | .smem => 0
  | _ => 0

abbrev hbmTy0_0 (i : Nat) : BufTy := match i % 128 with
  | 0 => ⟨S2097152x25, .f32⟩
  | 1 => ⟨S2097152x1, .f32⟩
  | 2 => ⟨S2097152x1, .f32⟩
  | 3 => ⟨S2097152x1, .f32⟩
  | 4 => ⟨S2097152x1, .f32⟩
  | 5 => ⟨S2097152x1, .f32⟩
  | 6 => ⟨S_, .i32⟩
  | 7 => ⟨S1, .i32⟩
  | 8 => ⟨S2097152x25, .f32⟩
  | 9 => ⟨S2097152x2, .f32⟩
  | 10 => ⟨S2097152x1, .f32⟩
  | 11 => ⟨S2097152x2, .f32⟩
  | 12 => ⟨S2097152x2, .f32⟩
  | 13 => ⟨S2097152x2, .f32⟩
  | 14 => ⟨S2097152x2, .f32⟩
  | 15 => ⟨S_, .i32⟩
  | 16 => ⟨S1, .i32⟩
  | 17 => ⟨S2097152x25, .f32⟩
  | 18 => ⟨S2097152x3, .f32⟩
  | 19 => ⟨S2097152x1, .f32⟩
  | 20 => ⟨S2097152x3, .f32⟩
  | 21 => ⟨S2097152x3, .f32⟩
  | 22 => ⟨S2097152x3, .f32⟩
  | 23 => ⟨S2097152x3, .f32⟩
  | 24 => ⟨S_, .i32⟩
  | 25 => ⟨S1, .i32⟩
  | 26 => ⟨S2097152x25, .f32⟩
  | 27 => ⟨S2097152x4, .f32⟩
  | 28 => ⟨S2097152x1, .f32⟩
  | 29 => ⟨S2097152x4, .f32⟩
  | 30 => ⟨S2097152x4, .f32⟩
  | 31 => ⟨S2097152x4, .f32⟩
  | 32 => ⟨S2097152x4, .f32⟩
  | 33 => ⟨S_, .i32⟩
  | 34 => ⟨S1, .i32⟩
  | 35 => ⟨S2097152x25, .f32⟩
  | 36 => ⟨S2097152x5, .f32⟩
  | 37 => ⟨S2097152x1, .f32⟩
  | 38 => ⟨S2097152x5, .f32⟩
  | 39 => ⟨S2097152x5, .f32⟩
  | 40 => ⟨S2097152x5, .f32⟩
  | 41 => ⟨S2097152x5, .f32⟩
  | 42 => ⟨S_, .i32⟩
  | 43 => ⟨S1, .i32⟩
  | 44 => ⟨S2097152x25, .f32⟩
  | 45 => ⟨S2097152x6, .f32⟩
  | 46 => ⟨S2097152x1, .f32⟩
  | 47 => ⟨S2097152x6, .f32⟩
  | 48 => ⟨S2097152x6, .f32⟩
  | 49 => ⟨S2097152x6, .f32⟩
  | 50 => ⟨S2097152x6, .f32⟩
  | 51 => ⟨S_, .i32⟩
  | 52 => ⟨S1, .i32⟩
  | 53 => ⟨S2097152x25, .f32⟩
  | 54 => ⟨S2097152x7, .f32⟩
  | 55 => ⟨S2097152x1, .f32⟩
  | 56 => ⟨S2097152x7, .f32⟩
  | 57 => ⟨S2097152x7, .f32⟩
  | 58 => ⟨S2097152x7, .f32⟩
  | 59 => ⟨S2097152x7, .f32⟩
  | 60 => ⟨S_, .i32⟩
  | 61 => ⟨S1, .i32⟩
  | 62 => ⟨S2097152x25, .f32⟩
  | 63 => ⟨S2097152x8, .f32⟩
  | 64 => ⟨S2097152x1, .f32⟩
  | 65 => ⟨S2097152x8, .f32⟩
  | 66 => ⟨S2097152x8, .f32⟩
  | 67 => ⟨S2097152x8, .f32⟩
  | 68 => ⟨S2097152x8, .f32⟩
  | 69 => ⟨S_, .i32⟩
  | 70 => ⟨S1, .i32⟩
  | 71 => ⟨S2097152x25, .f32⟩
  | 72 => ⟨S2097152x9, .f32⟩
  | 73 => ⟨S2097152x1, .f32⟩
  | 74 => ⟨S2097152x9, .f32⟩
  | 75 => ⟨S2097152x9, .f32⟩
  | 76 => ⟨S2097152x9, .f32⟩
  | 77 => ⟨S2097152x9, .f32⟩
  | 78 => ⟨S_, .i32⟩
  | 79 => ⟨S1, .i32⟩
  | 80 => ⟨S2097152x25, .f32⟩
  | 81 => ⟨S2097152x10, .f32⟩
  | 82 => ⟨S2097152x1, .f32⟩
  | 83 => ⟨S2097152x10, .f32⟩
  | 84 => ⟨S2097152x10, .f32⟩
  | 85 => ⟨S2097152x10, .f32⟩
  | 86 => ⟨S2097152x10, .f32⟩
  | 87 => ⟨S_, .i32⟩
  | 88 => ⟨S1, .i32⟩
  | 89 => ⟨S2097152x25, .f32⟩
  | 90 => ⟨S2097152x11, .f32⟩
  | 91 => ⟨S2097152x1, .f32⟩
  | 92 => ⟨S2097152x11, .f32⟩
  | 93 => ⟨S2097152x11, .f32⟩
  | 94 => ⟨S2097152x11, .f32⟩
  | 95 => ⟨S2097152x11, .f32⟩
  | 96 => ⟨S_, .i32⟩
  | 97 => ⟨S1, .i32⟩
  | 98 => ⟨S2097152x25, .f32⟩
  | 99 => ⟨S2097152x12, .f32⟩
  | 100 => ⟨S2097152x1, .f32⟩
  | 101 => ⟨S2097152x12, .f32⟩
  | 102 => ⟨S2097152x12, .f32⟩
  | 103 => ⟨S2097152x12, .f32⟩
  | 104 => ⟨S2097152x12, .f32⟩
  | 105 => ⟨S_, .i32⟩
  | 106 => ⟨S1, .i32⟩
  | 107 => ⟨S2097152x25, .f32⟩
  | 108 => ⟨S2097152x13, .f32⟩
  | 109 => ⟨S2097152x1, .f32⟩
  | 110 => ⟨S2097152x13, .f32⟩
  | 111 => ⟨S2097152x13, .f32⟩
  | 112 => ⟨S2097152x13, .f32⟩
  | 113 => ⟨S2097152x13, .f32⟩
  | 114 => ⟨S_, .i32⟩
  | 115 => ⟨S1, .i32⟩
  | 116 => ⟨S2097152x25, .f32⟩
  | 117 => ⟨S2097152x14, .f32⟩
  | 118 => ⟨S2097152x1, .f32⟩
  | 119 => ⟨S2097152x14, .f32⟩
  | 120 => ⟨S2097152x14, .f32⟩
  | 121 => ⟨S2097152x14, .f32⟩
  | 122 => ⟨S2097152x14, .f32⟩
  | 123 => ⟨S_, .i32⟩
  | 124 => ⟨S1, .i32⟩
  | 125 => ⟨S2097152x25, .f32⟩
  | 126 => ⟨S2097152x15, .f32⟩
  | 127 => ⟨S2097152x1, .f32⟩
  | _ => ⟨S2097152x25, .f32⟩

abbrev hbmTy0_1 (i : Nat) : BufTy := match i % 128 with
  | 0 => ⟨S2097152x15, .f32⟩
  | 1 => ⟨S2097152x15, .f32⟩
  | 2 => ⟨S2097152x15, .f32⟩
  | 3 => ⟨S2097152x15, .f32⟩
  | 4 => ⟨S_, .i32⟩
  | 5 => ⟨S1, .i32⟩
  | 6 => ⟨S2097152x25, .f32⟩
  | 7 => ⟨S2097152x16, .f32⟩
  | 8 => ⟨S2097152x1, .f32⟩
  | 9 => ⟨S2097152x16, .f32⟩
  | 10 => ⟨S2097152x16, .f32⟩
  | 11 => ⟨S2097152x16, .f32⟩
  | 12 => ⟨S2097152x16, .f32⟩
  | 13 => ⟨S_, .i32⟩
  | 14 => ⟨S1, .i32⟩
  | 15 => ⟨S2097152x25, .f32⟩
  | 16 => ⟨S2097152x17, .f32⟩
  | 17 => ⟨S2097152x1, .f32⟩
  | 18 => ⟨S2097152x17, .f32⟩
  | 19 => ⟨S2097152x17, .f32⟩
  | 20 => ⟨S2097152x17, .f32⟩
  | 21 => ⟨S2097152x17, .f32⟩
  | 22 => ⟨S_, .i32⟩
  | 23 => ⟨S1, .i32⟩
  | 24 => ⟨S2097152x25, .f32⟩
  | 25 => ⟨S2097152x18, .f32⟩
  | 26 => ⟨S2097152x1, .f32⟩
  | 27 => ⟨S2097152x18, .f32⟩
  | 28 => ⟨S2097152x18, .f32⟩
  | 29 => ⟨S2097152x18, .f32⟩
  | 30 => ⟨S2097152x18, .f32⟩
  | 31 => ⟨S_, .i32⟩
  | 32 => ⟨S1, .i32⟩
  | 33 => ⟨S2097152x25, .f32⟩
  | 34 => ⟨S2097152x19, .f32⟩
  | 35 => ⟨S2097152x1, .f32⟩
  | 36 => ⟨S2097152x19, .f32⟩
  | 37 => ⟨S2097152x19, .f32⟩
  | 38 => ⟨S2097152x19, .f32⟩
  | 39 => ⟨S2097152x19, .f32⟩
  | 40 => ⟨S_, .i32⟩
  | 41 => ⟨S1, .i32⟩
  | 42 => ⟨S2097152x25, .f32⟩
  | 43 => ⟨S2097152x20, .f32⟩
  | 44 => ⟨S2097152x1, .f32⟩
  | 45 => ⟨S2097152x20, .f32⟩
  | 46 => ⟨S2097152x20, .f32⟩
  | 47 => ⟨S2097152x20, .f32⟩
  | 48 => ⟨S2097152x20, .f32⟩
  | 49 => ⟨S_, .i32⟩
  | 50 => ⟨S1, .i32⟩
  | 51 => ⟨S2097152x25, .f32⟩
  | 52 => ⟨S2097152x21, .f32⟩
  | 53 => ⟨S2097152x1, .f32⟩
  | 54 => ⟨S2097152x21, .f32⟩
  | 55 => ⟨S2097152x21, .f32⟩
  | 56 => ⟨S2097152x21, .f32⟩
  | 57 => ⟨S2097152x21, .f32⟩
  | 58 => ⟨S_, .i32⟩
  | 59 => ⟨S1, .i32⟩
  | 60 => ⟨S2097152x25, .f32⟩
  | 61 => ⟨S2097152x22, .f32⟩
  | 62 => ⟨S2097152x1, .f32⟩
  | 63 => ⟨S2097152x22, .f32⟩
  | 64 => ⟨S2097152x22, .f32⟩
  | 65 => ⟨S2097152x22, .f32⟩
  | 66 => ⟨S2097152x22, .f32⟩
  | 67 => ⟨S_, .i32⟩
  | 68 => ⟨S1, .i32⟩
  | 69 => ⟨S2097152x25, .f32⟩
  | 70 => ⟨S2097152x23, .f32⟩
  | 71 => ⟨S2097152x1, .f32⟩
  | 72 => ⟨S2097152x23, .f32⟩
  | 73 => ⟨S2097152x23, .f32⟩
  | 74 => ⟨S2097152x23, .f32⟩
  | 75 => ⟨S2097152x23, .f32⟩
  | 76 => ⟨S_, .i32⟩
  | 77 => ⟨S1, .i32⟩
  | 78 => ⟨S2097152x25, .f32⟩
  | _ => ⟨S2097152x25, .f32⟩

abbrev hbmTy (i : Nat) : BufTy := match i / 128 with
  | 0 => hbmTy0_0 i
  | 1 => hbmTy0_1 i
  | _ => ⟨S2097152x25, .f32⟩

abbrev bufTy : (tb : Table) → Fin (tcTables nBuf tb) → BufTy
  | .hbm, ⟨i, _⟩ => hbmTy i
  | _, _ => ⟨S2097152x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_c_1 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_c_2 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_c_3 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_c_4 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_c_5 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_c_6 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_c_7 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_c_8 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_c_9 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_c_10 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_c_11 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_c_12 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_c_13 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_c_14 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_c_15 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_c_16 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_c_17 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_c_18 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_c_19 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_c_20 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_c_21 : Ref sig .tc := ⟨.hbm, 204, rfl⟩
abbrev main_v181 : Ref sig .tc := ⟨.hbm, 205, rfl⟩
abbrev main_v182 : Ref sig .tc := ⟨.hbm, 206, rfl⟩

abbrev nD : Nat := 1
abbrev τ : Topo := Topo.v7x

variable {F : FTy → Type} [FloatOps F]

class Facts₀ : Prop where
  slices_S2097152x25_S2097152x1_0_1 : S2097152x25.Slices ![0, 1] S2097152x1
  slices_S2097152x25_S2097152x1_0_2 : S2097152x25.Slices ![0, 2] S2097152x1
  bcast_S_S1 : S_.BroadcastsInDim S1 (![] : Fin 0 → Fin S1.rank)
  slices_S2097152x25_S2097152x2_0_1 : S2097152x25.Slices ![0, 1] S2097152x2
  slices_S2097152x25_S2097152x1_0_3 : S2097152x25.Slices ![0, 3] S2097152x1
  bcast_S2097152x1_S2097152x2_0_1 : S2097152x1.BroadcastsInDim S2097152x2 (![0, 1] : Fin 2 → Fin S2097152x2.rank)
  slices_S2097152x25_S2097152x3_0_1 : S2097152x25.Slices ![0, 1] S2097152x3
  slices_S2097152x25_S2097152x1_0_4 : S2097152x25.Slices ![0, 4] S2097152x1
  bcast_S2097152x1_S2097152x3_0_1 : S2097152x1.BroadcastsInDim S2097152x3 (![0, 1] : Fin 2 → Fin S2097152x3.rank)
  slices_S2097152x25_S2097152x4_0_1 : S2097152x25.Slices ![0, 1] S2097152x4
  slices_S2097152x25_S2097152x1_0_5 : S2097152x25.Slices ![0, 5] S2097152x1
  bcast_S2097152x1_S2097152x4_0_1 : S2097152x1.BroadcastsInDim S2097152x4 (![0, 1] : Fin 2 → Fin S2097152x4.rank)
  slices_S2097152x25_S2097152x5_0_1 : S2097152x25.Slices ![0, 1] S2097152x5
  slices_S2097152x25_S2097152x1_0_6 : S2097152x25.Slices ![0, 6] S2097152x1
  bcast_S2097152x1_S2097152x5_0_1 : S2097152x1.BroadcastsInDim S2097152x5 (![0, 1] : Fin 2 → Fin S2097152x5.rank)
  slices_S2097152x25_S2097152x6_0_1 : S2097152x25.Slices ![0, 1] S2097152x6
  slices_S2097152x25_S2097152x1_0_7 : S2097152x25.Slices ![0, 7] S2097152x1
  bcast_S2097152x1_S2097152x6_0_1 : S2097152x1.BroadcastsInDim S2097152x6 (![0, 1] : Fin 2 → Fin S2097152x6.rank)
  slices_S2097152x25_S2097152x7_0_1 : S2097152x25.Slices ![0, 1] S2097152x7
  slices_S2097152x25_S2097152x1_0_8 : S2097152x25.Slices ![0, 8] S2097152x1
  bcast_S2097152x1_S2097152x7_0_1 : S2097152x1.BroadcastsInDim S2097152x7 (![0, 1] : Fin 2 → Fin S2097152x7.rank)
  slices_S2097152x25_S2097152x8_0_1 : S2097152x25.Slices ![0, 1] S2097152x8
  slices_S2097152x25_S2097152x1_0_9 : S2097152x25.Slices ![0, 9] S2097152x1
  bcast_S2097152x1_S2097152x8_0_1 : S2097152x1.BroadcastsInDim S2097152x8 (![0, 1] : Fin 2 → Fin S2097152x8.rank)
  slices_S2097152x25_S2097152x9_0_1 : S2097152x25.Slices ![0, 1] S2097152x9
  slices_S2097152x25_S2097152x1_0_10 : S2097152x25.Slices ![0, 10] S2097152x1
  bcast_S2097152x1_S2097152x9_0_1 : S2097152x1.BroadcastsInDim S2097152x9 (![0, 1] : Fin 2 → Fin S2097152x9.rank)
  slices_S2097152x25_S2097152x10_0_1 : S2097152x25.Slices ![0, 1] S2097152x10
  slices_S2097152x25_S2097152x1_0_11 : S2097152x25.Slices ![0, 11] S2097152x1
  bcast_S2097152x1_S2097152x10_0_1 : S2097152x1.BroadcastsInDim S2097152x10 (![0, 1] : Fin 2 → Fin S2097152x10.rank)
  slices_S2097152x25_S2097152x11_0_1 : S2097152x25.Slices ![0, 1] S2097152x11
  slices_S2097152x25_S2097152x1_0_12 : S2097152x25.Slices ![0, 12] S2097152x1
  bcast_S2097152x1_S2097152x11_0_1 : S2097152x1.BroadcastsInDim S2097152x11 (![0, 1] : Fin 2 → Fin S2097152x11.rank)
  slices_S2097152x25_S2097152x12_0_1 : S2097152x25.Slices ![0, 1] S2097152x12
  slices_S2097152x25_S2097152x1_0_13 : S2097152x25.Slices ![0, 13] S2097152x1
  bcast_S2097152x1_S2097152x12_0_1 : S2097152x1.BroadcastsInDim S2097152x12 (![0, 1] : Fin 2 → Fin S2097152x12.rank)
  slices_S2097152x25_S2097152x13_0_1 : S2097152x25.Slices ![0, 1] S2097152x13
  slices_S2097152x25_S2097152x1_0_14 : S2097152x25.Slices ![0, 14] S2097152x1
  bcast_S2097152x1_S2097152x13_0_1 : S2097152x1.BroadcastsInDim S2097152x13 (![0, 1] : Fin 2 → Fin S2097152x13.rank)
  slices_S2097152x25_S2097152x14_0_1 : S2097152x25.Slices ![0, 1] S2097152x14
  slices_S2097152x25_S2097152x1_0_15 : S2097152x25.Slices ![0, 15] S2097152x1
  bcast_S2097152x1_S2097152x14_0_1 : S2097152x1.BroadcastsInDim S2097152x14 (![0, 1] : Fin 2 → Fin S2097152x14.rank)
  slices_S2097152x25_S2097152x15_0_1 : S2097152x25.Slices ![0, 1] S2097152x15
  slices_S2097152x25_S2097152x1_0_16 : S2097152x25.Slices ![0, 16] S2097152x1
  bcast_S2097152x1_S2097152x15_0_1 : S2097152x1.BroadcastsInDim S2097152x15 (![0, 1] : Fin 2 → Fin S2097152x15.rank)
  slices_S2097152x25_S2097152x16_0_1 : S2097152x25.Slices ![0, 1] S2097152x16
  slices_S2097152x25_S2097152x1_0_17 : S2097152x25.Slices ![0, 17] S2097152x1
  bcast_S2097152x1_S2097152x16_0_1 : S2097152x1.BroadcastsInDim S2097152x16 (![0, 1] : Fin 2 → Fin S2097152x16.rank)
  slices_S2097152x25_S2097152x17_0_1 : S2097152x25.Slices ![0, 1] S2097152x17
  slices_S2097152x25_S2097152x1_0_18 : S2097152x25.Slices ![0, 18] S2097152x1
  bcast_S2097152x1_S2097152x17_0_1 : S2097152x1.BroadcastsInDim S2097152x17 (![0, 1] : Fin 2 → Fin S2097152x17.rank)
  slices_S2097152x25_S2097152x18_0_1 : S2097152x25.Slices ![0, 1] S2097152x18
  slices_S2097152x25_S2097152x1_0_19 : S2097152x25.Slices ![0, 19] S2097152x1
  bcast_S2097152x1_S2097152x18_0_1 : S2097152x1.BroadcastsInDim S2097152x18 (![0, 1] : Fin 2 → Fin S2097152x18.rank)
  slices_S2097152x25_S2097152x19_0_1 : S2097152x25.Slices ![0, 1] S2097152x19
  slices_S2097152x25_S2097152x1_0_20 : S2097152x25.Slices ![0, 20] S2097152x1
  bcast_S2097152x1_S2097152x19_0_1 : S2097152x1.BroadcastsInDim S2097152x19 (![0, 1] : Fin 2 → Fin S2097152x19.rank)
  slices_S2097152x25_S2097152x20_0_1 : S2097152x25.Slices ![0, 1] S2097152x20
  slices_S2097152x25_S2097152x1_0_21 : S2097152x25.Slices ![0, 21] S2097152x1
  bcast_S2097152x1_S2097152x20_0_1 : S2097152x1.BroadcastsInDim S2097152x20 (![0, 1] : Fin 2 → Fin S2097152x20.rank)
  slices_S2097152x25_S2097152x21_0_1 : S2097152x25.Slices ![0, 1] S2097152x21
  slices_S2097152x25_S2097152x1_0_22 : S2097152x25.Slices ![0, 22] S2097152x1
  bcast_S2097152x1_S2097152x21_0_1 : S2097152x1.BroadcastsInDim S2097152x21 (![0, 1] : Fin 2 → Fin S2097152x21.rank)
  slices_S2097152x25_S2097152x22_0_1 : S2097152x25.Slices ![0, 1] S2097152x22
  slices_S2097152x25_S2097152x1_0_23 : S2097152x25.Slices ![0, 23] S2097152x1
  bcast_S2097152x1_S2097152x22_0_1 : S2097152x1.BroadcastsInDim S2097152x22 (![0, 1] : Fin 2 → Fin S2097152x22.rank)
  slices_S2097152x25_S2097152x23_0_1 : S2097152x25.Slices ![0, 1] S2097152x23
  slices_S2097152x25_S2097152x1_0_24 : S2097152x25.Slices ![0, 24] S2097152x1
  bcast_S2097152x1_S2097152x23_0_1 : S2097152x1.BroadcastsInDim S2097152x23 (![0, 1] : Fin 2 → Fin S2097152x23.rank)
  scatter_S2097152x25_S1_S2097152x1_01_n_1_0_wf : ScatterDims.WF S2097152x25 S1 S2097152x1 [0, 1] [] [1] 0
  scatter_S2097152x25_S1_S2097152x2_01_n_1_0_wf : ScatterDims.WF S2097152x25 S1 S2097152x2 [0, 1] [] [1] 0
  scatter_S2097152x25_S1_S2097152x3_01_n_1_0_wf : ScatterDims.WF S2097152x25 S1 S2097152x3 [0, 1] [] [1] 0
  scatter_S2097152x25_S1_S2097152x4_01_n_1_0_wf : ScatterDims.WF S2097152x25 S1 S2097152x4 [0, 1] [] [1] 0
  scatter_S2097152x25_S1_S2097152x5_01_n_1_0_wf : ScatterDims.WF S2097152x25 S1 S2097152x5 [0, 1] [] [1] 0
  scatter_S2097152x25_S1_S2097152x6_01_n_1_0_wf : ScatterDims.WF S2097152x25 S1 S2097152x6 [0, 1] [] [1] 0
  scatter_S2097152x25_S1_S2097152x7_01_n_1_0_wf : ScatterDims.WF S2097152x25 S1 S2097152x7 [0, 1] [] [1] 0
  scatter_S2097152x25_S1_S2097152x8_01_n_1_0_wf : ScatterDims.WF S2097152x25 S1 S2097152x8 [0, 1] [] [1] 0
  scatter_S2097152x25_S1_S2097152x9_01_n_1_0_wf : ScatterDims.WF S2097152x25 S1 S2097152x9 [0, 1] [] [1] 0
  scatter_S2097152x25_S1_S2097152x10_01_n_1_0_wf : ScatterDims.WF S2097152x25 S1 S2097152x10 [0, 1] [] [1] 0
  scatter_S2097152x25_S1_S2097152x11_01_n_1_0_wf : ScatterDims.WF S2097152x25 S1 S2097152x11 [0, 1] [] [1] 0
  scatter_S2097152x25_S1_S2097152x12_01_n_1_0_wf : ScatterDims.WF S2097152x25 S1 S2097152x12 [0, 1] [] [1] 0
  scatter_S2097152x25_S1_S2097152x13_01_n_1_0_wf : ScatterDims.WF S2097152x25 S1 S2097152x13 [0, 1] [] [1] 0
  scatter_S2097152x25_S1_S2097152x14_01_n_1_0_wf : ScatterDims.WF S2097152x25 S1 S2097152x14 [0, 1] [] [1] 0
  scatter_S2097152x25_S1_S2097152x15_01_n_1_0_wf : ScatterDims.WF S2097152x25 S1 S2097152x15 [0, 1] [] [1] 0
  scatter_S2097152x25_S1_S2097152x16_01_n_1_0_wf : ScatterDims.WF S2097152x25 S1 S2097152x16 [0, 1] [] [1] 0
  scatter_S2097152x25_S1_S2097152x17_01_n_1_0_wf : ScatterDims.WF S2097152x25 S1 S2097152x17 [0, 1] [] [1] 0
  scatter_S2097152x25_S1_S2097152x18_01_n_1_0_wf : ScatterDims.WF S2097152x25 S1 S2097152x18 [0, 1] [] [1] 0
  scatter_S2097152x25_S1_S2097152x19_01_n_1_0_wf : ScatterDims.WF S2097152x25 S1 S2097152x19 [0, 1] [] [1] 0
  scatter_S2097152x25_S1_S2097152x20_01_n_1_0_wf : ScatterDims.WF S2097152x25 S1 S2097152x20 [0, 1] [] [1] 0
  scatter_S2097152x25_S1_S2097152x21_01_n_1_0_wf : ScatterDims.WF S2097152x25 S1 S2097152x21 [0, 1] [] [1] 0
  scatter_S2097152x25_S1_S2097152x22_01_n_1_0_wf : ScatterDims.WF S2097152x25 S1 S2097152x22 [0, 1] [] [1] 0
  scatter_S2097152x25_S1_S2097152x23_01_n_1_0_wf : ScatterDims.WF S2097152x25 S1 S2097152x23 [0, 1] [] [1] 0

variable [Facts₀]

def scatter_S2097152x25_S1_S2097152x1_01_n_1_0 : ScatterDims S2097152x25 S1 S2097152x1 where
  updateWindowDims := [0, 1]
  insertedWindowDims := []
  scatterDimsToOperandDims := [1]
  indexVectorDim := 0
  wf := scatter_S2097152x25_S1_S2097152x1_01_n_1_0_wf
def scatter_S2097152x25_S1_S2097152x2_01_n_1_0 : ScatterDims S2097152x25 S1 S2097152x2 where
  updateWindowDims := [0, 1]
  insertedWindowDims := []
  scatterDimsToOperandDims := [1]
  indexVectorDim := 0
  wf := scatter_S2097152x25_S1_S2097152x2_01_n_1_0_wf
def scatter_S2097152x25_S1_S2097152x3_01_n_1_0 : ScatterDims S2097152x25 S1 S2097152x3 where
  updateWindowDims := [0, 1]
  insertedWindowDims := []
  scatterDimsToOperandDims := [1]
  indexVectorDim := 0
  wf := scatter_S2097152x25_S1_S2097152x3_01_n_1_0_wf
def scatter_S2097152x25_S1_S2097152x4_01_n_1_0 : ScatterDims S2097152x25 S1 S2097152x4 where
  updateWindowDims := [0, 1]
  insertedWindowDims := []
  scatterDimsToOperandDims := [1]
  indexVectorDim := 0
  wf := scatter_S2097152x25_S1_S2097152x4_01_n_1_0_wf
def scatter_S2097152x25_S1_S2097152x5_01_n_1_0 : ScatterDims S2097152x25 S1 S2097152x5 where
  updateWindowDims := [0, 1]
  insertedWindowDims := []
  scatterDimsToOperandDims := [1]
  indexVectorDim := 0
  wf := scatter_S2097152x25_S1_S2097152x5_01_n_1_0_wf
def scatter_S2097152x25_S1_S2097152x6_01_n_1_0 : ScatterDims S2097152x25 S1 S2097152x6 where
  updateWindowDims := [0, 1]
  insertedWindowDims := []
  scatterDimsToOperandDims := [1]
  indexVectorDim := 0
  wf := scatter_S2097152x25_S1_S2097152x6_01_n_1_0_wf
def scatter_S2097152x25_S1_S2097152x7_01_n_1_0 : ScatterDims S2097152x25 S1 S2097152x7 where
  updateWindowDims := [0, 1]
  insertedWindowDims := []
  scatterDimsToOperandDims := [1]
  indexVectorDim := 0
  wf := scatter_S2097152x25_S1_S2097152x7_01_n_1_0_wf
def scatter_S2097152x25_S1_S2097152x8_01_n_1_0 : ScatterDims S2097152x25 S1 S2097152x8 where
  updateWindowDims := [0, 1]
  insertedWindowDims := []
  scatterDimsToOperandDims := [1]
  indexVectorDim := 0
  wf := scatter_S2097152x25_S1_S2097152x8_01_n_1_0_wf
def scatter_S2097152x25_S1_S2097152x9_01_n_1_0 : ScatterDims S2097152x25 S1 S2097152x9 where
  updateWindowDims := [0, 1]
  insertedWindowDims := []
  scatterDimsToOperandDims := [1]
  indexVectorDim := 0
  wf := scatter_S2097152x25_S1_S2097152x9_01_n_1_0_wf
def scatter_S2097152x25_S1_S2097152x10_01_n_1_0 : ScatterDims S2097152x25 S1 S2097152x10 where
  updateWindowDims := [0, 1]
  insertedWindowDims := []
  scatterDimsToOperandDims := [1]
  indexVectorDim := 0
  wf := scatter_S2097152x25_S1_S2097152x10_01_n_1_0_wf
def scatter_S2097152x25_S1_S2097152x11_01_n_1_0 : ScatterDims S2097152x25 S1 S2097152x11 where
  updateWindowDims := [0, 1]
  insertedWindowDims := []
  scatterDimsToOperandDims := [1]
  indexVectorDim := 0
  wf := scatter_S2097152x25_S1_S2097152x11_01_n_1_0_wf
def scatter_S2097152x25_S1_S2097152x12_01_n_1_0 : ScatterDims S2097152x25 S1 S2097152x12 where
  updateWindowDims := [0, 1]
  insertedWindowDims := []
  scatterDimsToOperandDims := [1]
  indexVectorDim := 0
  wf := scatter_S2097152x25_S1_S2097152x12_01_n_1_0_wf
def scatter_S2097152x25_S1_S2097152x13_01_n_1_0 : ScatterDims S2097152x25 S1 S2097152x13 where
  updateWindowDims := [0, 1]
  insertedWindowDims := []
  scatterDimsToOperandDims := [1]
  indexVectorDim := 0
  wf := scatter_S2097152x25_S1_S2097152x13_01_n_1_0_wf
def scatter_S2097152x25_S1_S2097152x14_01_n_1_0 : ScatterDims S2097152x25 S1 S2097152x14 where
  updateWindowDims := [0, 1]
  insertedWindowDims := []
  scatterDimsToOperandDims := [1]
  indexVectorDim := 0
  wf := scatter_S2097152x25_S1_S2097152x14_01_n_1_0_wf
def scatter_S2097152x25_S1_S2097152x15_01_n_1_0 : ScatterDims S2097152x25 S1 S2097152x15 where
  updateWindowDims := [0, 1]
  insertedWindowDims := []
  scatterDimsToOperandDims := [1]
  indexVectorDim := 0
  wf := scatter_S2097152x25_S1_S2097152x15_01_n_1_0_wf
def scatter_S2097152x25_S1_S2097152x16_01_n_1_0 : ScatterDims S2097152x25 S1 S2097152x16 where
  updateWindowDims := [0, 1]
  insertedWindowDims := []
  scatterDimsToOperandDims := [1]
  indexVectorDim := 0
  wf := scatter_S2097152x25_S1_S2097152x16_01_n_1_0_wf
def scatter_S2097152x25_S1_S2097152x17_01_n_1_0 : ScatterDims S2097152x25 S1 S2097152x17 where
  updateWindowDims := [0, 1]
  insertedWindowDims := []
  scatterDimsToOperandDims := [1]
  indexVectorDim := 0
  wf := scatter_S2097152x25_S1_S2097152x17_01_n_1_0_wf
def scatter_S2097152x25_S1_S2097152x18_01_n_1_0 : ScatterDims S2097152x25 S1 S2097152x18 where
  updateWindowDims := [0, 1]
  insertedWindowDims := []
  scatterDimsToOperandDims := [1]
  indexVectorDim := 0
  wf := scatter_S2097152x25_S1_S2097152x18_01_n_1_0_wf
def scatter_S2097152x25_S1_S2097152x19_01_n_1_0 : ScatterDims S2097152x25 S1 S2097152x19 where
  updateWindowDims := [0, 1]
  insertedWindowDims := []
  scatterDimsToOperandDims := [1]
  indexVectorDim := 0
  wf := scatter_S2097152x25_S1_S2097152x19_01_n_1_0_wf
def scatter_S2097152x25_S1_S2097152x20_01_n_1_0 : ScatterDims S2097152x25 S1 S2097152x20 where
  updateWindowDims := [0, 1]
  insertedWindowDims := []
  scatterDimsToOperandDims := [1]
  indexVectorDim := 0
  wf := scatter_S2097152x25_S1_S2097152x20_01_n_1_0_wf
def scatter_S2097152x25_S1_S2097152x21_01_n_1_0 : ScatterDims S2097152x25 S1 S2097152x21 where
  updateWindowDims := [0, 1]
  insertedWindowDims := []
  scatterDimsToOperandDims := [1]
  indexVectorDim := 0
  wf := scatter_S2097152x25_S1_S2097152x21_01_n_1_0_wf
def scatter_S2097152x25_S1_S2097152x22_01_n_1_0 : ScatterDims S2097152x25 S1 S2097152x22 where
  updateWindowDims := [0, 1]
  insertedWindowDims := []
  scatterDimsToOperandDims := [1]
  indexVectorDim := 0
  wf := scatter_S2097152x25_S1_S2097152x22_01_n_1_0_wf
def scatter_S2097152x25_S1_S2097152x23_01_n_1_0 : ScatterDims S2097152x25 S1 S2097152x23 where
  updateWindowDims := [0, 1]
  insertedWindowDims := []
  scatterDimsToOperandDims := [1]
  indexVectorDim := 0
  wf := scatter_S2097152x25_S1_S2097152x23_01_n_1_0_wf

class Facts : Prop extends Facts₀ where

variable [Facts]
-- ==== Proof.TileStep.lean ====
/-
  The recursion on one row, and one step of it on a transposed tile.

  A row holds 25 coefficients.  Step `m` (for `m = 2, …, 24`) replaces entries `1 ≤ j < m` of the running row `a` by
  `a j + k m * a (m - j)` — the reflection coefficient `k m` times the SAME row read backwards over `1 … m-1` — and keeps
  every other entry.  `rowStep` is that step over rows indexed by the naturals, `rowLpc` the steps `2, …, n+1` in order
  from the row of reflection coefficients itself.

  On a tile the coefficient axis is the FIRST axis (25 rows of 8192 lanes): a step slices rows `1 … m-1`, builds the
  backwards copy by stacking the single rows `m-1, …, 1`, multiplies it by row `m` of the untouched coefficients repeated
  down the rows, adds, and stacks row `0`, the new rows and rows `m … 24` again.  `Tile.step` is that composite for any
  `3 ≤ m ≤ 24` (`Tile.step2` is the first step, where all pieces are single rows), and `Tile.step_apply` reads it at an
  entry: it is `rowStep` on the column through that entry.  Nothing here depends on the arithmetic: the sum and the
  product are the instance's own, applied in the same order on both sides.
-/
import Idealize.ShloMosaic.Lib.Pipeline.Value
import Idealize.ShloMosaic.Lib.ValueIdx
import Idealize.ShloMosaic.PureOps

noncomputable section

namespace Parcor

open Idealize.ShloMosaic Idealize.ShloMosaic.ValueIdx

/-! ## The recursion on a row -/

section Row
variable {β : Type}

/-- Step `m` on a row: entries `1 ≤ j < m` become `a j + k m * a (m - j)`, the others stay. -/
def rowStep (add mul : β → β → β) (m : ℕ) (k a : ℕ → β) : ℕ → β :=
  fun j => if 1 ≤ j ∧ j < m then add (a j) (mul (k m) (a (m - j))) else a j

/-- The steps `2, …, n + 1` in order, from the row `k` itself. -/
def rowLpc (add mul : β → β → β) (k : ℕ → β) : ℕ → ℕ → β
  | 0 => k
  | n + 1 => rowStep add mul (n + 2) k (rowLpc add mul k n)

/-- A step reads the running row only at entries below 25 (when `m ≤ 24`): rows that agree there step alike there. -/
theorem rowStep_congr (add mul : β → β → β) (m : ℕ) (hm : m ≤ 24) (k a a' : ℕ → β) (h : ∀ j, j < 25 → a j = a' j) :
    ∀ j, j < 25 → rowStep add mul m k a j = rowStep add mul m k a' j := by
  intro j hj
  unfold rowStep
  by_cases hc : 1 ≤ j ∧ j < m
  · rw [if_pos hc, if_pos hc, h j hj, h (m - j) (by omega)]
  · rw [if_neg hc, if_neg hc, h j hj]

end Row

namespace Tile

/-- `c` rows of 8192 lanes. -/
abbrev Sr (c : ℕ) : Shape := ⟨2, ![c, 8192]⟩

/-- Rows `o … o + c - 1` of the 25 are a block. -/
theorem slices_rows (o c : ℕ) (h : o + c ≤ 25) : (Sr 25).Slices ![o, 0] (Sr c) :=
  ⟨rfl, fun a => match a with
    | ⟨0, _⟩ => h
    | ⟨1, _⟩ => Nat.le_of_eq (Nat.zero_add _)⟩

/-- One row repeats down any number of rows. -/
theorem bcast_rows (c : ℕ) : (Sr 1).Broadcasts (Sr c) :=
  ⟨Nat.le_refl 2, fun a => match a with
    | ⟨0, _⟩ => Or.inl rfl
    | ⟨1, _⟩ => Or.inr fun _ => rfl⟩

/-- Three stacks of rows that add up to 25 rows stack to the whole tile. -/
theorem concat_three (p q r : ℕ) (h : p + q + r = 25) : Shape.Concatenates [Sr p, Sr q, Sr r] (Sr 25) 0 := by
  refine ⟨by show 2 ≤ 3; omega, ?_, ?_⟩
  · intro s hs
    simp only [List.mem_cons, List.mem_nil_iff, or_false] at hs
    rcases hs with rfl | rfl | rfl <;>
    · refine ⟨rfl, fun b hb => ?_⟩
      match b with
      | ⟨0, _⟩ => exact absurd rfl hb
      | ⟨1, _⟩ => rfl
  · show (if h : (Sr p).rank = (Sr 25).rank then _ else 0) + ((if h : (Sr q).rank = (Sr 25).rank then _ else 0)
        + ((if h : (Sr r).rank = (Sr 25).rank then _ else 0) + 0)) = 25
    rw [dif_pos rfl, dif_pos rfl, dif_pos rfl]
    show p + (q + (r + 0)) = 25
    omega

/-- `n ≥ 2` single rows stack to `n` rows. -/
theorem concat_units {α : Type} (n : ℕ) (hn : 2 ≤ n) (f : Fin n → ((Sr 1).Idx → α)) :
    Shape.Concatenates ((List.ofFn fun i : Fin n => (⟨Sr 1, f i⟩ : (s : Shape) × (s.Idx → α))).map (·.1)) (Sr n) 0 := by
  have hmap : (List.ofFn fun i : Fin n => (⟨Sr 1, f i⟩ : (s : Shape) × (s.Idx → α))).map (·.1) = List.replicate n (Sr 1) := by
    rw [List.map_ofFn]
    exact List.ofFn_const n (Sr 1)
  rw [hmap]
  refine ⟨by rw [List.length_replicate]; exact hn, ?_, ?_⟩
  · intro s hs
    obtain rfl := List.eq_of_mem_replicate hs
    exact ⟨rfl, fun b hb => match b with
      | ⟨0, _⟩ => absurd rfl hb
      | ⟨1, _⟩ => rfl⟩
  · rw [List.map_replicate, List.sum_replicate]
    show n • (if h : (Sr 1).rank = (Sr n).rank then (Sr 1).size ((0 : Fin (Sr n).rank).cast h.symm) else 0) = n
    rw [dif_pos rfl]
    show n • 1 = n
    simp

variable {F : FTy → Type} [FloatOps F]

/-- Rows `o … o + c - 1` of a tile. -/
def rows (o c : ℕ) (h : o + c ≤ 25) (a : FVec F (Sr 25) .f32) : FVec F (Sr c) .f32 :=
  extractStridedSlice (Sr c) ![o, 0] a (slices_rows o c h)

/-- Rows `m - 1, …, 1` of a tile, stacked in that order: rows `1 … m - 1` read backwards. -/
def flip (m : ℕ) (h3 : 3 ≤ m) (h : m ≤ 25) (a : FVec F (Sr 25) .f32) : FVec F (Sr (m - 1)) .f32 :=
  concatenate (Sr (m - 1)) 0
    (List.ofFn fun i : Fin (m - 1) => (⟨Sr 1, rows (m - 1 - i.val) 1 (by omega) a⟩ : (s : Shape) × (s.Idx → F .f32)))
    (concat_units (m - 1) (by omega) _)

/-- Row `m` of the coefficients repeated down `m - 1` rows. -/
def coef (m : ℕ) (h : m ≤ 24) (kt : FVec F (Sr 25) .f32) : FVec F (Sr (m - 1)) .f32 :=
  broadcastTo (Sr (m - 1)) (rows m 1 (by omega) kt) (bcast_rows _)

/-- The coefficient times the backwards rows. -/
def scaled (m : ℕ) (h3 : 3 ≤ m) (h : m ≤ 24) (kt a : FVec F (Sr 25) .f32) : FVec F (Sr (m - 1)) .f32 :=
  mulf (coef m h kt) (flip m h3 (by omega) a)

/-- The new rows `1 … m - 1` of step `m`. -/
def fresh (m : ℕ) (h3 : 3 ≤ m) (h : m ≤ 24) (kt a : FVec F (Sr 25) .f32) : FVec F (Sr (m - 1)) .f32 :=
  addf (rows 1 (m - 1) (by omega) a) (scaled m h3 h kt a)

/-- The tile after step `m`, given the new rows: row `0`, the new rows, rows `m … 24`. -/
def stack (m : ℕ) (h1 : 1 ≤ m) (h : m ≤ 24) (nw : FVec F (Sr (m - 1)) .f32) (a : FVec F (Sr 25) .f32) : FVec F (Sr 25) .f32 :=
  concatenate (Sr 25) 0 [⟨Sr 1, rows 0 1 (by omega) a⟩, ⟨Sr (m - 1), nw⟩, ⟨Sr (25 - m), rows m (25 - m) (by omega) a⟩]
    (concat_three 1 (m - 1) (25 - m) (by omega))

/-- Step `m` on a tile, `3 ≤ m ≤ 24`. -/
def step (m : ℕ) (h3 : 3 ≤ m) (h : m ≤ 24) (kt a : FVec F (Sr 25) .f32) : FVec F (Sr 25) .f32 :=
  stack m (by omega) h (fresh m h3 h kt a) a

/-- Step `2` on a tile: every piece is a single row, nothing is repeated or stacked backwards. -/
def step2 (kt a : FVec F (Sr 25) .f32) : FVec F (Sr 25) .f32 :=
  stack 2 (by omega) (by omega)
    (addf (rows 1 1 (by omega) a) (mulf (rows 2 1 (by omega) kt) (rows 1 1 (by omega) a))) a

/-! ### Read at an entry -/

theorem rows_apply (o c : ℕ) (h : o + c ≤ 25) (a : FVec F (Sr 25) .f32) (i : Fin c) (r : Fin 8192) :
    rows o c h a (ix2 i r) = a (ix2 ⟨o + i.val, by omega⟩ r) :=
  extractStridedSlice_apply ![o, 0] a (slices_rows o c h) (ix2 i r) _ (fun b => match b with
    | ⟨0, _⟩ => rfl
    | ⟨1, _⟩ => (Nat.zero_add _).symm)

theorem flip_apply (m : ℕ) (h3 : 3 ≤ m) (h : m ≤ 25) (a : FVec F (Sr 25) .f32) (i : Fin (m - 1)) (r : Fin 8192) :
    flip m h3 h a (ix2 i r) = a (ix2 ⟨m - 1 - i.val, by omega⟩ r) := by
  unfold flip
  refine (concatenate_ofFn_unit_apply (t := Sr (m - 1)) (s₁ := Sr 1) 0
    (fun i : Fin (m - 1) => rows (m - 1 - i.val) 1 (by omega) a) _ rfl rfl (ix2 i r) i rfl (ix2 0 r)
    (fun b hb => match b with
      | ⟨0, _⟩ => absurd rfl hb
      | ⟨1, _⟩ => rfl)).trans ?_
  exact rows_apply _ _ _ a 0 r

theorem coef_apply (m : ℕ) (h : m ≤ 24) (kt : FVec F (Sr 25) .f32) (i : Fin (m - 1)) (r : Fin 8192) :
    coef m h kt (ix2 i r) = kt (ix2 ⟨m, by omega⟩ r) := by
  unfold coef
  refine (broadcastTo_apply _ (bcast_rows (m - 1)) (ix2 i r) (ix2 0 r) (fun b => match b with
    | ⟨0, _⟩ => (if_pos rfl).symm
    | ⟨1, _⟩ => (if_neg (by show ¬ (8192 = 1); omega)).symm)).trans ?_
  exact rows_apply _ _ _ kt 0 r

theorem fresh_apply (m : ℕ) (h3 : 3 ≤ m) (h : m ≤ 24) (kt a : FVec F (Sr 25) .f32) (i : Fin (m - 1)) (r : Fin 8192) :
    fresh m h3 h kt a (ix2 i r)
      = FloatOps.addf (a (ix2 ⟨1 + i.val, by omega⟩ r))
          (FloatOps.mulf (kt (ix2 ⟨m, by omega⟩ r)) (a (ix2 ⟨m - 1 - i.val, by omega⟩ r))) := by
  show FloatOps.addf (rows 1 (m - 1) _ a (ix2 i r)) (FloatOps.mulf (coef m h kt (ix2 i r)) (flip m h3 _ a (ix2 i r))) = _
  rw [rows_apply, coef_apply, flip_apply]

/-- A stacked tile read at an entry: row `0` and rows `m …` are the old ones, rows `1 … m - 1` the new ones. -/
theorem stack_apply (m : ℕ) (h1 : 1 ≤ m) (h : m ≤ 24) (nw : FVec F (Sr (m - 1)) .f32) (a : FVec F (Sr 25) .f32)
    (j : Fin 25) (r : Fin 8192) :
    stack m h1 h nw a (ix2 j r)
      = if hj : 1 ≤ j.val ∧ j.val < m then nw (ix2 ⟨j.val - 1, by omega⟩ r) else a (ix2 j r) := by
  unfold stack
  by_cases hj : 1 ≤ j.val ∧ j.val < m
  · rw [dif_pos hj]
    exact concatenate_apply_piece (t := Sr 25) 0 _ _ (ix2 j r) 1 (by show 1 < 3; omega) (Sr (m - 1)) nw rfl rfl 1 rfl
      (ix2 ⟨j.val - 1, by omega⟩ r)
      (fun b hb => match b with
        | ⟨0, _⟩ => absurd rfl hb
        | ⟨1, _⟩ => rfl)
      (by show 1 + (j.val - 1) = j.val; omega)
  · rw [dif_neg hj]
    by_cases h0 : j.val = 0
    · refine (concatenate_apply_piece (t := Sr 25) 0 _ _ (ix2 j r) 0 (by show 0 < 3; omega) (Sr 1) (rows 0 1 (by omega) a) rfl rfl 0 rfl
        (ix2 0 r)
        (fun b hb => match b with
          | ⟨0, _⟩ => absurd rfl hb
          | ⟨1, _⟩ => rfl)
        (by show 0 + 0 = j.val; omega)).trans ?_
      rw [rows_apply]
      exact congrArg a (congrArg (fun q => ix2 q r) (Fin.ext (by show 0 + 0 = j.val; omega)))
    · have hm : m ≤ j.val := by omega
      refine (concatenate_apply_piece (t := Sr 25) 0 _ _ (ix2 j r) 2 (by show 2 < 3; omega) (Sr (25 - m)) (rows m (25 - m) (by omega) a) rfl rfl m
        (by show 1 + ((m - 1) + 0) = m; omega)
        (ix2 ⟨j.val - m, by omega⟩ r)
        (fun b hb => match b with
          | ⟨0, _⟩ => absurd rfl hb
          | ⟨1, _⟩ => rfl)
        (by show m + (j.val - m) = j.val; omega)).trans ?_
      rw [rows_apply]
      exact congrArg a (congrArg (fun q => ix2 q r) (Fin.ext (by show m + (j.val - m) = j.val; omega)))

/-- The column of a tile through lane `r`, as a row indexed by the naturals (indices wrap beyond 24; none is read there). -/
def col (a : FVec F (Sr 25) .f32) (r : Fin 8192) : ℕ → F .f32 :=
  fun j => a (ix2 ⟨j % 25, Nat.mod_lt _ (by decide)⟩ r)

theorem col_of_lt (a : FVec F (Sr 25) .f32) (r : Fin 8192) (j : ℕ) (hj : j < 25) : col a r j = a (ix2 ⟨j, hj⟩ r) :=
  congrArg a (congrArg (fun q => ix2 q r) (Fin.ext (Nat.mod_eq_of_lt hj)))

/-- Step `m` on a tile is the row step on every column. -/
theorem step_apply (m : ℕ) (h3 : 3 ≤ m) (h : m ≤ 24) (kt a : FVec F (Sr 25) .f32) (j : Fin 25) (r : Fin 8192) :
    step m h3 h kt a (ix2 j r) = rowStep FloatOps.addf FloatOps.mulf m (col kt r) (col a r) j.val := by
  unfold step rowStep
  rw [stack_apply]
  by_cases hj : 1 ≤ j.val ∧ j.val < m
  · rw [dif_pos hj, if_pos hj, fresh_apply, col_of_lt a r j.val j.isLt, col_of_lt kt r m (by omega), col_of_lt a r (m - j.val) (by omega)]
    have e1 : (⟨1 + (j.val - 1), by omega⟩ : Fin 25) = j := Fin.ext (by show 1 + (j.val - 1) = j.val; omega)
    have e2 : (⟨m - 1 - (j.val - 1), by omega⟩ : Fin 25) = ⟨m - j.val, by omega⟩ := Fin.ext (by show m - 1 - (j.val - 1) = m - j.val; omega)
    simp only [e1, e2]
  · rw [dif_neg hj, if_neg hj, col_of_lt a r j.val j.isLt]

/-- Step `2` on a tile is the row step on every column. -/
theorem step2_apply (kt a : FVec F (Sr 25) .f32) (j : Fin 25) (r : Fin 8192) :
    step2 kt a (ix2 j r) = rowStep FloatOps.addf FloatOps.mulf 2 (col kt r) (col a r) j.val := by
  unfold step2 rowStep
  rw [stack_apply]
  by_cases hj : 1 ≤ j.val ∧ j.val < 2
  · have hj1 : j = ⟨1, by decide⟩ := Fin.ext (by show j.val = 1; omega)
    subst hj1
    rw [dif_pos hj, if_pos hj]
    show FloatOps.addf (rows 1 1 _ a (ix2 _ r)) (FloatOps.mulf (rows 2 1 _ kt (ix2 _ r)) (rows 1 1 _ a (ix2 _ r))) = _
    rw [rows_apply, rows_apply]
    show _ = FloatOps.addf (col a r 1) (FloatOps.mulf (col kt r 2) (col a r 1))
    rw [col_of_lt a r 1 (by omega), col_of_lt kt r 2 (by omega)]
    rfl
  · rw [dif_neg hj, if_neg hj, col_of_lt a r j.val j.isLt]

/-! ### All the steps -/

/-- The tile after steps `2, …, n + 1`, from the coefficients' tile. -/
def run (kt : FVec F (Sr 25) .f32) : ℕ → FVec F (Sr 25) .f32
  | 0 => kt
  | 1 => step2 kt kt
  | n + 2 => if h : n + 3 ≤ 24 then step (n + 3) (by omega) h kt (run kt (n + 1)) else run kt (n + 1)

/-- Every column of the tile after steps `2, …, n + 1` is the row recursion of that column of the coefficients. -/
theorem run_apply (kt : FVec F (Sr 25) .f32) (r : Fin 8192) :
    ∀ (n : ℕ), n ≤ 23 → ∀ j : Fin 25, run kt n (ix2 j r) = rowLpc FloatOps.addf FloatOps.mulf (col kt r) n j.val
  | 0, _, j => (col_of_lt kt r j.val j.isLt).symm
  | 1, _, j => step2_apply kt kt j r
  | n + 2, hn, j => by
    have h : n + 3 ≤ 24 := by omega
    have ih := run_apply kt r (n + 1) (by omega)
    rw [run, dif_pos h, step_apply]
    show rowStep _ _ (n + 3) (col kt r) (col (run kt (n + 1)) r) j.val
      = rowStep _ _ (n + 1 + 2) (col kt r) (rowLpc _ _ (col kt r) (n + 1)) j.val
    exact rowStep_congr _ _ (n + 3) h _ _ _ (fun j' hj' => (col_of_lt _ r j' hj').trans (ih ⟨j', hj'⟩)) j.val j.isLt

/-- A block of 8192 rows of 25 coefficients. -/
abbrev Sb : Shape := ⟨2, ![8192, 25]⟩

/-- The block turned so that the coefficient axis comes first. -/
def tr (x0 : Vec F Sb .f32) : FVec F (Sr 25) .f32 := transpose (Sr 25) [1, 0] x0 (by decide)

/-- A tile turned back into a block of rows. -/
def back (a : FVec F (Sr 25) .f32) : FVec F Sb .f32 := transpose Sb [1, 0] a (by decide)

theorem tr_apply (x0 : Vec F Sb .f32) (j : Fin 25) (r : Fin 8192) : tr x0 (ix2 j r) = x0 (ix2 r j) :=
  transpose_apply [1, 0] x0 (by decide) (ix2 j r) (ix2 r j) (fun b => match b with
    | ⟨0, _⟩ => rfl
    | ⟨1, _⟩ => rfl)

theorem back_apply (a : FVec F (Sr 25) .f32) (r : Fin 8192) (j : Fin 25) : back a (ix2 r j) = a (ix2 j r) :=
  transpose_apply [1, 0] a (by decide) (ix2 r j) (ix2 j r) (fun b => match b with
    | ⟨0, _⟩ => rfl
    | ⟨1, _⟩ => rfl)

/-- Row `r` of a block, indexed by the naturals (indices wrap beyond 24; none is read there). -/
def rowOf (x0 : Vec F Sb .f32) (r : Fin 8192) : ℕ → F .f32 :=
  fun j => x0 (ix2 r ⟨j % 25, Nat.mod_lt _ (by decide)⟩)

/-- A block turned, stepped `2, …, 24` and turned back holds, in every row, the recursion of that row. -/
theorem back_run_apply (x0 : Vec F Sb .f32) (r : Fin 8192) (j : Fin 25) :
    back (run (tr x0) 23) (ix2 r j) = rowLpc FloatOps.addf FloatOps.mulf (rowOf x0 r) 23 j.val := by
  rw [back_apply, run_apply (tr x0) r 23 (Nat.le_refl _) j]
  exact congrArg (fun k => rowLpc FloatOps.addf FloatOps.mulf k 23 j.val) (funext fun j' => tr_apply x0 _ r)

end Tile

end Parcor

end
-- ==== Proof.KernelPieces.lean ====
/-
  The kernel body's named pieces, each as a stage of the tile recursion.

  The body is one straight line of slices, stacks, products and sums over the transposed block; it is stated in named
  pieces that cut through the steps at arbitrary places.  Each lemma below takes a piece at the values the earlier pieces
  hold — the tile after so many steps (`Tile.run`), some of its rows, or the half-made new rows of the step under way
  (`Tile.fresh`, `Tile.scaled`, `Tile.flip`) — and says which such value it is.  Every one holds by unfolding both sides
  to the same slices, stacks, products and sums.  `body_eq` chains them: the body's stored value is the block turned,
  stepped `2, …, 24` and turned back.
-/
import proofs.«136782_j21878563405828_2_alg».proof.Proof.Gen.KernelIdeal.Skeleton
import proofs.«136782_j21878563405828_2_alg».proof.Proof.TileStep
import Idealize.ShloMosaic.Lib.Tactic

set_option maxRecDepth 65536

noncomputable section

namespace Cert.KernelIdeal.Pieces

open Idealize.ShloMosaic Idealize.ShloMosaic.Tactic Cert.KernelIdeal Cert.KernelIdeal.Gen Parcor

variable {F : FTy → Type} [FloatOps F]

theorem pay2_eq (x0 : Vec F S8192x25 .f32) :
    k0_pay2 x0
      = (Tile.tr x0) := rfl

theorem pay3_eq (x0 : Vec F S8192x25 .f32) :
    k0_pay3 x0
      = (Tile.run (Tile.tr x0) 4) := by
  rw [k0_pay3, pay2_eq]
  sl_kernel_rfl

theorem pay4_eq (x0 : Vec F S8192x25 .f32) :
    k0_pay4 x0
      = (Tile.fresh 6 (by decide) (by decide) (Tile.tr x0) (Tile.run (Tile.tr x0) 4)) := by
  rw [k0_pay4, pay3_eq, pay2_eq]
  rfl

theorem pay5_eq (kt : FVec F S25x8192 .f32) :
    k0_pay5 kt (Tile.run kt 4) (Tile.fresh 6 (by decide) (by decide) kt (Tile.run kt 4))
      = (Tile.run kt 8) := by
  rw [k0_pay5]
  sl_kernel_rfl

theorem pay6_eq (kt : FVec F S25x8192 .f32) :
    k0_pay6 kt (Tile.run kt 4) (Tile.fresh 6 (by decide) (by decide) kt (Tile.run kt 4))
      = (Tile.rows 1 9 (by decide) (Tile.run kt 8)) := by
  rw [k0_pay6, pay5_eq]
  rfl

theorem pay7_eq (kt : FVec F S25x8192 .f32) :
    k0_pay7 kt (Tile.run kt 4) (Tile.fresh 6 (by decide) (by decide) kt (Tile.run kt 4))
      = (Tile.rows 9 1 (by decide) (Tile.run kt 8)) := by
  rw [k0_pay7, pay5_eq]
  rfl

theorem pay8_eq (kt : FVec F S25x8192 .f32) :
    k0_pay8 kt (Tile.run kt 4) (Tile.fresh 6 (by decide) (by decide) kt (Tile.run kt 4))
      = (Tile.rows 8 1 (by decide) (Tile.run kt 8)) := by
  rw [k0_pay8, pay5_eq]
  rfl

theorem pay9_eq (kt : FVec F S25x8192 .f32) :
    k0_pay9 kt (Tile.run kt 4) (Tile.fresh 6 (by decide) (by decide) kt (Tile.run kt 4))
      = (Tile.rows 7 1 (by decide) (Tile.run kt 8)) := by
  rw [k0_pay9, pay5_eq]
  rfl

theorem pay10_eq (kt : FVec F S25x8192 .f32) :
    k0_pay10 kt (Tile.run kt 4) (Tile.fresh 6 (by decide) (by decide) kt (Tile.run kt 4))
      = (Tile.rows 6 1 (by decide) (Tile.run kt 8)) := by
  rw [k0_pay10, pay5_eq]
  rfl

theorem pay11_eq (kt : FVec F S25x8192 .f32) :
    k0_pay11 kt (Tile.run kt 4) (Tile.fresh 6 (by decide) (by decide) kt (Tile.run kt 4))
      = (Tile.rows 5 1 (by decide) (Tile.run kt 8)) := by
  rw [k0_pay11, pay5_eq]
  rfl

theorem pay12_eq (kt : FVec F S25x8192 .f32) :
    k0_pay12 kt (Tile.run kt 4) (Tile.fresh 6 (by decide) (by decide) kt (Tile.run kt 4))
      = (Tile.rows 4 1 (by decide) (Tile.run kt 8)) := by
  rw [k0_pay12, pay5_eq]
  rfl

theorem pay13_eq (kt : FVec F S25x8192 .f32) :
    k0_pay13 kt (Tile.run kt 4) (Tile.fresh 6 (by decide) (by decide) kt (Tile.run kt 4))
      = (Tile.rows 3 1 (by decide) (Tile.run kt 8)) := by
  rw [k0_pay13, pay5_eq]
  rfl

theorem pay14_eq (kt : FVec F S25x8192 .f32) :
    k0_pay14 kt (Tile.run kt 4) (Tile.fresh 6 (by decide) (by decide) kt (Tile.run kt 4))
      = (Tile.rows 2 1 (by decide) (Tile.run kt 8)) := by
  rw [k0_pay14, pay5_eq]
  rfl

theorem pay15_eq (kt : FVec F S25x8192 .f32) :
    k0_pay15 kt (Tile.run kt 8) (Tile.rows 1 9 (by decide) (Tile.run kt 8)) (Tile.rows 9 1 (by decide) (Tile.run kt 8)) (Tile.rows 8 1 (by decide) (Tile.run kt 8)) (Tile.rows 7 1 (by decide) (Tile.run kt 8)) (Tile.rows 6 1 (by decide) (Tile.run kt 8)) (Tile.rows 5 1 (by decide) (Tile.run kt 8)) (Tile.rows 4 1 (by decide) (Tile.run kt 8)) (Tile.rows 3 1 (by decide) (Tile.run kt 8)) (Tile.rows 2 1 (by decide) (Tile.run kt 8))
      = (Tile.run kt 11) := by
  rw [k0_pay15]
  sl_kernel_rfl

theorem pay16_eq (kt : FVec F S25x8192 .f32) :
    k0_pay16 kt (Tile.run kt 8) (Tile.rows 1 9 (by decide) (Tile.run kt 8)) (Tile.rows 9 1 (by decide) (Tile.run kt 8)) (Tile.rows 8 1 (by decide) (Tile.run kt 8)) (Tile.rows 7 1 (by decide) (Tile.run kt 8)) (Tile.rows 6 1 (by decide) (Tile.run kt 8)) (Tile.rows 5 1 (by decide) (Tile.run kt 8)) (Tile.rows 4 1 (by decide) (Tile.run kt 8)) (Tile.rows 3 1 (by decide) (Tile.run kt 8)) (Tile.rows 2 1 (by decide) (Tile.run kt 8))
      = (Tile.rows 1 12 (by decide) (Tile.run kt 11)) := by
  rw [k0_pay16, pay15_eq]
  rfl

theorem pay17_eq (kt : FVec F S25x8192 .f32) :
    k0_pay17 kt (Tile.run kt 8) (Tile.rows 1 9 (by decide) (Tile.run kt 8)) (Tile.rows 9 1 (by decide) (Tile.run kt 8)) (Tile.rows 8 1 (by decide) (Tile.run kt 8)) (Tile.rows 7 1 (by decide) (Tile.run kt 8)) (Tile.rows 6 1 (by decide) (Tile.run kt 8)) (Tile.rows 5 1 (by decide) (Tile.run kt 8)) (Tile.rows 4 1 (by decide) (Tile.run kt 8)) (Tile.rows 3 1 (by decide) (Tile.run kt 8)) (Tile.rows 2 1 (by decide) (Tile.run kt 8))
      = (Tile.rows 12 1 (by decide) (Tile.run kt 11)) := by
  rw [k0_pay17, pay15_eq]
  rfl

theorem pay18_eq (kt : FVec F S25x8192 .f32) :
    k0_pay18 kt (Tile.run kt 8) (Tile.rows 1 9 (by decide) (Tile.run kt 8)) (Tile.rows 9 1 (by decide) (Tile.run kt 8)) (Tile.rows 8 1 (by decide) (Tile.run kt 8)) (Tile.rows 7 1 (by decide) (Tile.run kt 8)) (Tile.rows 6 1 (by decide) (Tile.run kt 8)) (Tile.rows 5 1 (by decide) (Tile.run kt 8)) (Tile.rows 4 1 (by decide) (Tile.run kt 8)) (Tile.rows 3 1 (by decide) (Tile.run kt 8)) (Tile.rows 2 1 (by decide) (Tile.run kt 8))
      = (Tile.rows 11 1 (by decide) (Tile.run kt 11)) := by
  rw [k0_pay18, pay15_eq]
  rfl

theorem pay19_eq (kt : FVec F S25x8192 .f32) :
    k0_pay19 kt (Tile.run kt 8) (Tile.rows 1 9 (by decide) (Tile.run kt 8)) (Tile.rows 9 1 (by decide) (Tile.run kt 8)) (Tile.rows 8 1 (by decide) (Tile.run kt 8)) (Tile.rows 7 1 (by decide) (Tile.run kt 8)) (Tile.rows 6 1 (by decide) (Tile.run kt 8)) (Tile.rows 5 1 (by decide) (Tile.run kt 8)) (Tile.rows 4 1 (by decide) (Tile.run kt 8)) (Tile.rows 3 1 (by decide) (Tile.run kt 8)) (Tile.rows 2 1 (by decide) (Tile.run kt 8))
      = (Tile.rows 10 1 (by decide) (Tile.run kt 11)) := by
  rw [k0_pay19, pay15_eq]
  rfl

theorem pay20_eq (kt : FVec F S25x8192 .f32) :
    k0_pay20 kt (Tile.run kt 8) (Tile.rows 1 9 (by decide) (Tile.run kt 8)) (Tile.rows 9 1 (by decide) (Tile.run kt 8)) (Tile.rows 8 1 (by decide) (Tile.run kt 8)) (Tile.rows 7 1 (by decide) (Tile.run kt 8)) (Tile.rows 6 1 (by decide) (Tile.run kt 8)) (Tile.rows 5 1 (by decide) (Tile.run kt 8)) (Tile.rows 4 1 (by decide) (Tile.run kt 8)) (Tile.rows 3 1 (by decide) (Tile.run kt 8)) (Tile.rows 2 1 (by decide) (Tile.run kt 8))
      = (Tile.rows 9 1 (by decide) (Tile.run kt 11)) := by
  rw [k0_pay20, pay15_eq]
  rfl

theorem pay21_eq (kt : FVec F S25x8192 .f32) :
    k0_pay21 kt (Tile.run kt 8) (Tile.rows 1 9 (by decide) (Tile.run kt 8)) (Tile.rows 9 1 (by decide) (Tile.run kt 8)) (Tile.rows 8 1 (by decide) (Tile.run kt 8)) (Tile.rows 7 1 (by decide) (Tile.run kt 8)) (Tile.rows 6 1 (by decide) (Tile.run kt 8)) (Tile.rows 5 1 (by decide) (Tile.run kt 8)) (Tile.rows 4 1 (by decide) (Tile.run kt 8)) (Tile.rows 3 1 (by decide) (Tile.run kt 8)) (Tile.rows 2 1 (by decide) (Tile.run kt 8))
      = (Tile.rows 8 1 (by decide) (Tile.run kt 11)) := by
  rw [k0_pay21, pay15_eq]
  rfl

theorem pay22_eq (kt : FVec F S25x8192 .f32) :
    k0_pay22 kt (Tile.run kt 8) (Tile.rows 1 9 (by decide) (Tile.run kt 8)) (Tile.rows 9 1 (by decide) (Tile.run kt 8)) (Tile.rows 8 1 (by decide) (Tile.run kt 8)) (Tile.rows 7 1 (by decide) (Tile.run kt 8)) (Tile.rows 6 1 (by decide) (Tile.run kt 8)) (Tile.rows 5 1 (by decide) (Tile.run kt 8)) (Tile.rows 4 1 (by decide) (Tile.run kt 8)) (Tile.rows 3 1 (by decide) (Tile.run kt 8)) (Tile.rows 2 1 (by decide) (Tile.run kt 8))
      = (Tile.rows 7 1 (by decide) (Tile.run kt 11)) := by
  rw [k0_pay22, pay15_eq]
  rfl

theorem pay23_eq (kt : FVec F S25x8192 .f32) :
    k0_pay23 kt (Tile.run kt 8) (Tile.rows 1 9 (by decide) (Tile.run kt 8)) (Tile.rows 9 1 (by decide) (Tile.run kt 8)) (Tile.rows 8 1 (by decide) (Tile.run kt 8)) (Tile.rows 7 1 (by decide) (Tile.run kt 8)) (Tile.rows 6 1 (by decide) (Tile.run kt 8)) (Tile.rows 5 1 (by decide) (Tile.run kt 8)) (Tile.rows 4 1 (by decide) (Tile.run kt 8)) (Tile.rows 3 1 (by decide) (Tile.run kt 8)) (Tile.rows 2 1 (by decide) (Tile.run kt 8))
      = (Tile.rows 6 1 (by decide) (Tile.run kt 11)) := by
  rw [k0_pay23, pay15_eq]
  rfl

theorem pay24_eq (kt : FVec F S25x8192 .f32) :
    k0_pay24 kt (Tile.run kt 8) (Tile.rows 1 9 (by decide) (Tile.run kt 8)) (Tile.rows 9 1 (by decide) (Tile.run kt 8)) (Tile.rows 8 1 (by decide) (Tile.run kt 8)) (Tile.rows 7 1 (by decide) (Tile.run kt 8)) (Tile.rows 6 1 (by decide) (Tile.run kt 8)) (Tile.rows 5 1 (by decide) (Tile.run kt 8)) (Tile.rows 4 1 (by decide) (Tile.run kt 8)) (Tile.rows 3 1 (by decide) (Tile.run kt 8)) (Tile.rows 2 1 (by decide) (Tile.run kt 8))
      = (Tile.rows 5 1 (by decide) (Tile.run kt 11)) := by
  rw [k0_pay24, pay15_eq]
  rfl

theorem pay25_eq (kt : FVec F S25x8192 .f32) :
    k0_pay25 kt (Tile.run kt 8) (Tile.rows 1 9 (by decide) (Tile.run kt 8)) (Tile.rows 9 1 (by decide) (Tile.run kt 8)) (Tile.rows 8 1 (by decide) (Tile.run kt 8)) (Tile.rows 7 1 (by decide) (Tile.run kt 8)) (Tile.rows 6 1 (by decide) (Tile.run kt 8)) (Tile.rows 5 1 (by decide) (Tile.run kt 8)) (Tile.rows 4 1 (by decide) (Tile.run kt 8)) (Tile.rows 3 1 (by decide) (Tile.run kt 8)) (Tile.rows 2 1 (by decide) (Tile.run kt 8))
      = (Tile.rows 4 1 (by decide) (Tile.run kt 11)) := by
  rw [k0_pay25, pay15_eq]
  rfl

theorem pay26_eq (kt : FVec F S25x8192 .f32) :
    k0_pay26 kt (Tile.run kt 8) (Tile.rows 1 9 (by decide) (Tile.run kt 8)) (Tile.rows 9 1 (by decide) (Tile.run kt 8)) (Tile.rows 8 1 (by decide) (Tile.run kt 8)) (Tile.rows 7 1 (by decide) (Tile.run kt 8)) (Tile.rows 6 1 (by decide) (Tile.run kt 8)) (Tile.rows 5 1 (by decide) (Tile.run kt 8)) (Tile.rows 4 1 (by decide) (Tile.run kt 8)) (Tile.rows 3 1 (by decide) (Tile.run kt 8)) (Tile.rows 2 1 (by decide) (Tile.run kt 8))
      = (Tile.rows 3 1 (by decide) (Tile.run kt 11)) := by
  rw [k0_pay26, pay15_eq]
  rfl

theorem pay27_eq (kt : FVec F S25x8192 .f32) :
    k0_pay27 kt (Tile.run kt 8) (Tile.rows 1 9 (by decide) (Tile.run kt 8)) (Tile.rows 9 1 (by decide) (Tile.run kt 8)) (Tile.rows 8 1 (by decide) (Tile.run kt 8)) (Tile.rows 7 1 (by decide) (Tile.run kt 8)) (Tile.rows 6 1 (by decide) (Tile.run kt 8)) (Tile.rows 5 1 (by decide) (Tile.run kt 8)) (Tile.rows 4 1 (by decide) (Tile.run kt 8)) (Tile.rows 3 1 (by decide) (Tile.run kt 8)) (Tile.rows 2 1 (by decide) (Tile.run kt 8))
      = (Tile.rows 2 1 (by decide) (Tile.run kt 11)) := by
  rw [k0_pay27, pay15_eq]
  rfl

theorem pay28_eq (kt : FVec F S25x8192 .f32) :
    k0_pay28 kt (Tile.run kt 11) (Tile.rows 1 12 (by decide) (Tile.run kt 11)) (Tile.rows 12 1 (by decide) (Tile.run kt 11)) (Tile.rows 11 1 (by decide) (Tile.run kt 11)) (Tile.rows 10 1 (by decide) (Tile.run kt 11)) (Tile.rows 9 1 (by decide) (Tile.run kt 11)) (Tile.rows 8 1 (by decide) (Tile.run kt 11)) (Tile.rows 7 1 (by decide) (Tile.run kt 11)) (Tile.rows 6 1 (by decide) (Tile.run kt 11)) (Tile.rows 5 1 (by decide) (Tile.run kt 11)) (Tile.rows 4 1 (by decide) (Tile.run kt 11)) (Tile.rows 3 1 (by decide) (Tile.run kt 11)) (Tile.rows 2 1 (by decide) (Tile.run kt 11))
      = (Tile.run kt 14) := by
  rw [k0_pay28]
  sl_kernel_rfl

theorem pay29_eq (kt : FVec F S25x8192 .f32) :
    k0_pay29 kt (Tile.run kt 11) (Tile.rows 1 12 (by decide) (Tile.run kt 11)) (Tile.rows 12 1 (by decide) (Tile.run kt 11)) (Tile.rows 11 1 (by decide) (Tile.run kt 11)) (Tile.rows 10 1 (by decide) (Tile.run kt 11)) (Tile.rows 9 1 (by decide) (Tile.run kt 11)) (Tile.rows 8 1 (by decide) (Tile.run kt 11)) (Tile.rows 7 1 (by decide) (Tile.run kt 11)) (Tile.rows 6 1 (by decide) (Tile.run kt 11)) (Tile.rows 5 1 (by decide) (Tile.run kt 11)) (Tile.rows 4 1 (by decide) (Tile.run kt 11)) (Tile.rows 3 1 (by decide) (Tile.run kt 11)) (Tile.rows 2 1 (by decide) (Tile.run kt 11))
      = (Tile.rows 1 15 (by decide) (Tile.run kt 14)) := by
  rw [k0_pay29, pay28_eq]
  rfl

theorem pay30_eq (kt : FVec F S25x8192 .f32) :
    k0_pay30 kt (Tile.run kt 11) (Tile.rows 1 12 (by decide) (Tile.run kt 11)) (Tile.rows 12 1 (by decide) (Tile.run kt 11)) (Tile.rows 11 1 (by decide) (Tile.run kt 11)) (Tile.rows 10 1 (by decide) (Tile.run kt 11)) (Tile.rows 9 1 (by decide) (Tile.run kt 11)) (Tile.rows 8 1 (by decide) (Tile.run kt 11)) (Tile.rows 7 1 (by decide) (Tile.run kt 11)) (Tile.rows 6 1 (by decide) (Tile.run kt 11)) (Tile.rows 5 1 (by decide) (Tile.run kt 11)) (Tile.rows 4 1 (by decide) (Tile.run kt 11)) (Tile.rows 3 1 (by decide) (Tile.run kt 11)) (Tile.rows 2 1 (by decide) (Tile.run kt 11))
      = (Tile.rows 15 1 (by decide) (Tile.run kt 14)) := by
  rw [k0_pay30, pay28_eq]
  rfl

theorem pay31_eq (kt : FVec F S25x8192 .f32) :
    k0_pay31 kt (Tile.run kt 11) (Tile.rows 1 12 (by decide) (Tile.run kt 11)) (Tile.rows 12 1 (by decide) (Tile.run kt 11)) (Tile.rows 11 1 (by decide) (Tile.run kt 11)) (Tile.rows 10 1 (by decide) (Tile.run kt 11)) (Tile.rows 9 1 (by decide) (Tile.run kt 11)) (Tile.rows 8 1 (by decide) (Tile.run kt 11)) (Tile.rows 7 1 (by decide) (Tile.run kt 11)) (Tile.rows 6 1 (by decide) (Tile.run kt 11)) (Tile.rows 5 1 (by decide) (Tile.run kt 11)) (Tile.rows 4 1 (by decide) (Tile.run kt 11)) (Tile.rows 3 1 (by decide) (Tile.run kt 11)) (Tile.rows 2 1 (by decide) (Tile.run kt 11))
      = (Tile.rows 14 1 (by decide) (Tile.run kt 14)) := by
  rw [k0_pay31, pay28_eq]
  rfl

theorem pay32_eq (kt : FVec F S25x8192 .f32) :
    k0_pay32 kt (Tile.run kt 11) (Tile.rows 1 12 (by decide) (Tile.run kt 11)) (Tile.rows 12 1 (by decide) (Tile.run kt 11)) (Tile.rows 11 1 (by decide) (Tile.run kt 11)) (Tile.rows 10 1 (by decide) (Tile.run kt 11)) (Tile.rows 9 1 (by decide) (Tile.run kt 11)) (Tile.rows 8 1 (by decide) (Tile.run kt 11)) (Tile.rows 7 1 (by decide) (Tile.run kt 11)) (Tile.rows 6 1 (by decide) (Tile.run kt 11)) (Tile.rows 5 1 (by decide) (Tile.run kt 11)) (Tile.rows 4 1 (by decide) (Tile.run kt 11)) (Tile.rows 3 1 (by decide) (Tile.run kt 11)) (Tile.rows 2 1 (by decide) (Tile.run kt 11))
      = (Tile.rows 13 1 (by decide) (Tile.run kt 14)) := by
  rw [k0_pay32, pay28_eq]
  rfl

theorem pay33_eq (kt : FVec F S25x8192 .f32) :
    k0_pay33 kt (Tile.run kt 11) (Tile.rows 1 12 (by decide) (Tile.run kt 11)) (Tile.rows 12 1 (by decide) (Tile.run kt 11)) (Tile.rows 11 1 (by decide) (Tile.run kt 11)) (Tile.rows 10 1 (by decide) (Tile.run kt 11)) (Tile.rows 9 1 (by decide) (Tile.run kt 11)) (Tile.rows 8 1 (by decide) (Tile.run kt 11)) (Tile.rows 7 1 (by decide) (Tile.run kt 11)) (Tile.rows 6 1 (by decide) (Tile.run kt 11)) (Tile.rows 5 1 (by decide) (Tile.run kt 11)) (Tile.rows 4 1 (by decide) (Tile.run kt 11)) (Tile.rows 3 1 (by decide) (Tile.run kt 11)) (Tile.rows 2 1 (by decide) (Tile.run kt 11))
      = (Tile.rows 12 1 (by decide) (Tile.run kt 14)) := by
  rw [k0_pay33, pay28_eq]
  rfl

theorem pay34_eq (kt : FVec F S25x8192 .f32) :
    k0_pay34 kt (Tile.run kt 11) (Tile.rows 1 12 (by decide) (Tile.run kt 11)) (Tile.rows 12 1 (by decide) (Tile.run kt 11)) (Tile.rows 11 1 (by decide) (Tile.run kt 11)) (Tile.rows 10 1 (by decide) (Tile.run kt 11)) (Tile.rows 9 1 (by decide) (Tile.run kt 11)) (Tile.rows 8 1 (by decide) (Tile.run kt 11)) (Tile.rows 7 1 (by decide) (Tile.run kt 11)) (Tile.rows 6 1 (by decide) (Tile.run kt 11)) (Tile.rows 5 1 (by decide) (Tile.run kt 11)) (Tile.rows 4 1 (by decide) (Tile.run kt 11)) (Tile.rows 3 1 (by decide) (Tile.run kt 11)) (Tile.rows 2 1 (by decide) (Tile.run kt 11))
      = (Tile.rows 11 1 (by decide) (Tile.run kt 14)) := by
  rw [k0_pay34, pay28_eq]
  rfl

theorem pay35_eq (kt : FVec F S25x8192 .f32) :
    k0_pay35 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.run kt 16) := by
  rw [k0_pay35]
  rfl

theorem pay36_eq (kt : FVec F S25x8192 .f32) :
    k0_pay36 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 1 17 (by decide) (Tile.run kt 16)) := by
  rw [k0_pay36, pay35_eq]
  rfl

theorem pay37_eq (kt : FVec F S25x8192 .f32) :
    k0_pay37 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 17 1 (by decide) (Tile.run kt 16)) := by
  rw [k0_pay37, pay35_eq]
  rfl

theorem pay38_eq (kt : FVec F S25x8192 .f32) :
    k0_pay38 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 16 1 (by decide) (Tile.run kt 16)) := by
  rw [k0_pay38, pay35_eq]
  rfl

theorem pay39_eq (kt : FVec F S25x8192 .f32) :
    k0_pay39 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 15 1 (by decide) (Tile.run kt 16)) := by
  rw [k0_pay39, pay35_eq]
  rfl

theorem pay40_eq (kt : FVec F S25x8192 .f32) :
    k0_pay40 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 14 1 (by decide) (Tile.run kt 16)) := by
  rw [k0_pay40, pay35_eq]
  rfl

theorem pay41_eq (kt : FVec F S25x8192 .f32) :
    k0_pay41 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 13 1 (by decide) (Tile.run kt 16)) := by
  rw [k0_pay41, pay35_eq]
  rfl

theorem pay42_eq (kt : FVec F S25x8192 .f32) :
    k0_pay42 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 12 1 (by decide) (Tile.run kt 16)) := by
  rw [k0_pay42, pay35_eq]
  rfl

theorem pay43_eq (kt : FVec F S25x8192 .f32) :
    k0_pay43 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 11 1 (by decide) (Tile.run kt 16)) := by
  rw [k0_pay43, pay35_eq]
  rfl

theorem pay44_eq (kt : FVec F S25x8192 .f32) :
    k0_pay44 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 10 1 (by decide) (Tile.run kt 16)) := by
  rw [k0_pay44, pay35_eq]
  rfl

theorem pay45_eq (kt : FVec F S25x8192 .f32) :
    k0_pay45 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 9 1 (by decide) (Tile.run kt 16)) := by
  rw [k0_pay45, pay35_eq]
  rfl

theorem pay46_eq (kt : FVec F S25x8192 .f32) :
    k0_pay46 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 8 1 (by decide) (Tile.run kt 16)) := by
  rw [k0_pay46, pay35_eq]
  rfl

theorem pay47_eq (kt : FVec F S25x8192 .f32) :
    k0_pay47 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 7 1 (by decide) (Tile.run kt 16)) := by
  rw [k0_pay47, pay35_eq]
  rfl

theorem pay48_eq (kt : FVec F S25x8192 .f32) :
    k0_pay48 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 6 1 (by decide) (Tile.run kt 16)) := by
  rw [k0_pay48, pay35_eq]
  rfl

theorem pay49_eq (kt : FVec F S25x8192 .f32) :
    k0_pay49 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 5 1 (by decide) (Tile.run kt 16)) := by
  rw [k0_pay49, pay35_eq]
  rfl

theorem pay50_eq (kt : FVec F S25x8192 .f32) :
    k0_pay50 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 4 1 (by decide) (Tile.run kt 16)) := by
  rw [k0_pay50, pay35_eq]
  rfl

theorem pay51_eq (kt : FVec F S25x8192 .f32) :
    k0_pay51 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 3 1 (by decide) (Tile.run kt 16)) := by
  rw [k0_pay51, pay35_eq]
  rfl

theorem pay52_eq (kt : FVec F S25x8192 .f32) :
    k0_pay52 kt (Tile.run kt 14) (Tile.rows 1 15 (by decide) (Tile.run kt 14)) (Tile.rows 15 1 (by decide) (Tile.run kt 14)) (Tile.rows 14 1 (by decide) (Tile.run kt 14)) (Tile.rows 13 1 (by decide) (Tile.run kt 14)) (Tile.rows 12 1 (by decide) (Tile.run kt 14)) (Tile.rows 11 1 (by decide) (Tile.run kt 14))
      = (Tile.rows 2 1 (by decide) (Tile.run kt 16)) := by
  rw [k0_pay52, pay35_eq]
  rfl

theorem pay53_eq (kt : FVec F S25x8192 .f32) :
    k0_pay53 kt (Tile.run kt 16) (Tile.rows 1 17 (by decide) (Tile.run kt 16)) (Tile.rows 17 1 (by decide) (Tile.run kt 16)) (Tile.rows 16 1 (by decide) (Tile.run kt 16)) (Tile.rows 15 1 (by decide) (Tile.run kt 16)) (Tile.rows 14 1 (by decide) (Tile.run kt 16)) (Tile.rows 13 1 (by decide) (Tile.run kt 16)) (Tile.rows 12 1 (by decide) (Tile.run kt 16)) (Tile.rows 11 1 (by decide) (Tile.run kt 16)) (Tile.rows 10 1 (by decide) (Tile.run kt 16)) (Tile.rows 9 1 (by decide) (Tile.run kt 16)) (Tile.rows 8 1 (by decide) (Tile.run kt 16)) (Tile.rows 7 1 (by decide) (Tile.run kt 16)) (Tile.rows 6 1 (by decide) (Tile.run kt 16)) (Tile.rows 5 1 (by decide) (Tile.run kt 16)) (Tile.rows 4 1 (by decide) (Tile.run kt 16)) (Tile.rows 3 1 (by decide) (Tile.run kt 16)) (Tile.rows 2 1 (by decide) (Tile.run kt 16))
      = (Tile.run kt 18) := by
  rw [k0_pay53]
  rfl

theorem pay54_eq (kt : FVec F S25x8192 .f32) :
    k0_pay54 kt (Tile.run kt 16) (Tile.rows 1 17 (by decide) (Tile.run kt 16)) (Tile.rows 17 1 (by decide) (Tile.run kt 16)) (Tile.rows 16 1 (by decide) (Tile.run kt 16)) (Tile.rows 15 1 (by decide) (Tile.run kt 16)) (Tile.rows 14 1 (by decide) (Tile.run kt 16)) (Tile.rows 13 1 (by decide) (Tile.run kt 16)) (Tile.rows 12 1 (by decide) (Tile.run kt 16)) (Tile.rows 11 1 (by decide) (Tile.run kt 16)) (Tile.rows 10 1 (by decide) (Tile.run kt 16)) (Tile.rows 9 1 (by decide) (Tile.run kt 16)) (Tile.rows 8 1 (by decide) (Tile.run kt 16)) (Tile.rows 7 1 (by decide) (Tile.run kt 16)) (Tile.rows 6 1 (by decide) (Tile.run kt 16)) (Tile.rows 5 1 (by decide) (Tile.run kt 16)) (Tile.rows 4 1 (by decide) (Tile.run kt 16)) (Tile.rows 3 1 (by decide) (Tile.run kt 16)) (Tile.rows 2 1 (by decide) (Tile.run kt 16))
      = (Tile.rows 1 19 (by decide) (Tile.run kt 18)) := by
  rw [k0_pay54, pay53_eq]
  rfl

theorem pay55_eq (kt : FVec F S25x8192 .f32) :
    k0_pay55 kt (Tile.run kt 16) (Tile.rows 1 17 (by decide) (Tile.run kt 16)) (Tile.rows 17 1 (by decide) (Tile.run kt 16)) (Tile.rows 16 1 (by decide) (Tile.run kt 16)) (Tile.rows 15 1 (by decide) (Tile.run kt 16)) (Tile.rows 14 1 (by decide) (Tile.run kt 16)) (Tile.rows 13 1 (by decide) (Tile.run kt 16)) (Tile.rows 12 1 (by decide) (Tile.run kt 16)) (Tile.rows 11 1 (by decide) (Tile.run kt 16)) (Tile.rows 10 1 (by decide) (Tile.run kt 16)) (Tile.rows 9 1 (by decide) (Tile.run kt 16)) (Tile.rows 8 1 (by decide) (Tile.run kt 16)) (Tile.rows 7 1 (by decide) (Tile.run kt 16)) (Tile.rows 6 1 (by decide) (Tile.run kt 16)) (Tile.rows 5 1 (by decide) (Tile.run kt 16)) (Tile.rows 4 1 (by decide) (Tile.run kt 16)) (Tile.rows 3 1 (by decide) (Tile.run kt 16)) (Tile.rows 2 1 (by decide) (Tile.run kt 16))
      = (Tile.scaled 20 (by decide) (by decide) kt (Tile.run kt 18)) := by
  rw [k0_pay55, pay53_eq]
  rfl

theorem pay56_eq (kt : FVec F S25x8192 .f32) :
    k0_pay56 kt (Tile.run kt 18) (Tile.rows 1 19 (by decide) (Tile.run kt 18)) (Tile.scaled 20 (by decide) (by decide) kt (Tile.run kt 18))
      = (Tile.run kt 20) := by
  rw [k0_pay56]
  rfl

theorem pay57_eq (kt : FVec F S25x8192 .f32) :
    k0_pay57 kt (Tile.run kt 18) (Tile.rows 1 19 (by decide) (Tile.run kt 18)) (Tile.scaled 20 (by decide) (by decide) kt (Tile.run kt 18))
      = (Tile.fresh 22 (by decide) (by decide) kt (Tile.run kt 20)) := by
  rw [k0_pay57, pay56_eq]
  rfl

theorem pay58_eq (kt : FVec F S25x8192 .f32) :
    k0_pay58 kt (Tile.run kt 20) (Tile.fresh 22 (by decide) (by decide) kt (Tile.run kt 20))
      = (Tile.run kt 22) := by
  rw [k0_pay58]
  rfl

theorem pay59_eq (kt : FVec F S25x8192 .f32) :
    k0_pay59 kt (Tile.run kt 20) (Tile.fresh 22 (by decide) (by decide) kt (Tile.run kt 20))
      = (Tile.rows 1 23 (by decide) (Tile.run kt 22)) := by
  rw [k0_pay59, pay58_eq]
  rfl

theorem pay60_eq (kt : FVec F S25x8192 .f32) :
    k0_pay60 kt (Tile.run kt 20) (Tile.fresh 22 (by decide) (by decide) kt (Tile.run kt 20))
      = (Tile.flip 24 (by decide) (by decide) (Tile.run kt 22)) := by
  rw [k0_pay60, pay58_eq]
  rfl

theorem pay61_eq (kt : FVec F S25x8192 .f32) :
    k0_pay61 kt
      = (Tile.rows 24 1 (by decide) kt) := by
  rw [k0_pay61]
  rfl

theorem pay1_eq (kt : FVec F S25x8192 .f32) :
    k0_pay1 (Tile.run kt 22) (Tile.rows 1 23 (by decide) (Tile.run kt 22)) (Tile.flip 24 (by decide) (by decide) (Tile.run kt 22)) (Tile.rows 24 1 (by decide) kt)
      = (Tile.back (Tile.run kt 23)) := by
  rw [k0_pay1]
  rfl

end Cert.KernelIdeal.Pieces

end
-- ==== Proof.LibScatterSet.lean ====
/-
  A scatter whose updates are written in place (the combiner returns the update) and whose targets are pairwise distinct
  reads, at a target, the one update that lands there, and elsewhere the operand.  Stated first for any left fold of
  point updates, then for `stablehlo.scatter` with ONE start index, a window covering the updates' two axes and the start
  applied to the second axis: the `[N, c]` update overwrites columns `1 … c` of an `[N, W]` operand.
-/
import Idealize.ShloMosaic.Lib.ValueIdx
import Idealize.ShloMosaic.PureOps

noncomputable section

namespace Parcor.Scatter

open Idealize.ShloMosaic Idealize.ShloMosaic.ValueIdx

section Fold
variable {ι κ α : Type}

/-- A fold of updates none of which touches `i` leaves `i` alone. -/
theorem foldl_miss (φ : (ι → α) → κ → (ι → α)) (i : ι) (hit : κ → Prop)
    (H1 : ∀ r n, ¬ hit n → φ r n i = r i) :
    ∀ (l : List κ) (x : ι → α), (∀ n ∈ l, ¬ hit n) → l.foldl φ x i = x i
  | [], x, _ => rfl
  | n :: l, x, h => by
    rw [List.foldl_cons, foldl_miss φ i hit H1 l (φ x n) (fun n' hn' => h n' (List.mem_cons_of_mem _ hn'))]
    exact H1 x n (h n (List.mem_cons_self ..))

/-- A fold of updates exactly one of which (`n0`) touches `i` applies that one to the initial value at `i`. -/
theorem foldl_hit (φ : (ι → α) → κ → (ι → α)) (i : ι) (hit : κ → Prop) (f : α → α → α) (w : κ → α)
    (H1 : ∀ r n, ¬ hit n → φ r n i = r i) (H2 : ∀ r n, hit n → φ r n i = f (r i) (w n)) (n0 : κ) (h0 : hit n0) :
    ∀ (l : List κ) (x : ι → α), l.Nodup → n0 ∈ l → (∀ n ∈ l, hit n → n = n0) → l.foldl φ x i = f (x i) (w n0)
  | [], x, _, hm, _ => absurd hm (List.not_mem_nil)
  | n :: l, x, hnd, hm, hu => by
    rw [List.foldl_cons]
    have hnd' := List.nodup_cons.1 hnd
    by_cases hn : n = n0
    · subst hn
      rw [foldl_miss φ i hit H1 l (φ x n) (fun n' hn' hh => by
        have := hu n' (List.mem_cons_of_mem _ hn') hh
        subst this
        exact hnd'.1 hn')]
      exact H2 x n h0
    · have hm' : n0 ∈ l := by
        rcases List.mem_cons.1 hm with h | h
        · exact absurd h.symm hn
        · exact h
      rw [foldl_hit φ i hit f w H1 H2 n0 h0 l (φ x n) hnd'.2 hm' (fun n' hn' => hu n' (List.mem_cons_of_mem _ hn'))]
      rw [H1 x n (fun hh => hn (hu n (List.mem_cons_self ..) hh))]

end Fold

variable {α : Type}

/-- An operand of `N` rows and `W` columns. -/
abbrev Sm (N W : ℕ) : Shape := ⟨2, ![N, W]⟩
/-- One start index. -/
abbrev S1 : Shape := ⟨1, ![1]⟩

/-- The scatter read at an entry NO update lands at, from what its index map does — every update index lands inside the
    operand (`tgt`), distinct update indices at distinct entries —: the operand's element. -/
theorem scatter_set_apply {s si u : Shape} {w : ℕ} (d : ScatterDims s si u) (x : s.Idx → α) (idx : IVec si w) (upd : u.Idx → α)
    (tgt : u.Idx → s.Idx) (htgt : ∀ j, d.resultIdx? j idx = some (tgt j)) (hinj : Function.Injective tgt) (i : s.Idx) :
    (∀ j, tgt j ≠ i) → Host.scatter d (fun _ b => b) x idx upd i = x i := by
  intro hno
  unfold Host.scatter
  refine foldl_miss _ i (fun n => tgt (u.rowMajor.symm n) = i) (fun r n hn => ?_) _ x (fun n _ => hno _)
  dsimp only
  rw [htgt]
  dsimp only
  rw [if_neg (fun h => hn h.symm)]

/-- The same scatter read at the entry where update index `j` lands: the update's element at `j`. -/
theorem scatter_set_apply_hit {s si u : Shape} {w : ℕ} (d : ScatterDims s si u) (x : s.Idx → α) (idx : IVec si w) (upd : u.Idx → α)
    (tgt : u.Idx → s.Idx) (htgt : ∀ j, d.resultIdx? j idx = some (tgt j)) (hinj : Function.Injective tgt) (j : u.Idx) :
    Host.scatter d (fun _ b => b) x idx upd (tgt j) = upd j := by
  unfold Host.scatter
  refine (foldl_hit _ (tgt j) (fun n => tgt (u.rowMajor.symm n) = tgt j) (fun _ b => b) (fun n => upd (u.rowMajor.symm n))
    (fun r n hn => ?_) (fun r n hn => ?_) (u.rowMajor j) (by rw [Equiv.symm_apply_apply]) _ x (List.nodup_finRange _) (List.mem_finRange _)
    (fun n _ hn => ?_)).trans ?_
  · dsimp only
    rw [htgt]
    dsimp only
    rw [if_neg (fun h => hn h.symm)]
  · dsimp only
    rw [htgt]
    dsimp only
    rw [hn, if_pos rfl]
  · have := hinj hn
    rw [← this, Equiv.apply_symm_apply]
  · show upd (u.rowMajor.symm (u.rowMajor j)) = upd j
    rw [Equiv.symm_apply_apply]

/-! ### One start index on the column axis -/

/-- Where update entry `j` lands: same row, column shifted by one. -/
def tgt1 {N W c : ℕ} (hc : 1 + c ≤ W) (j : (Sm N c).Idx) : (Sm N W).Idx :=
  ix2 (j 0) ⟨1 + (j 1).val, by have := idx2_lt1 j; omega⟩

/-- Distinct update entries land at distinct entries. -/
theorem tgt1_injective {N W c : ℕ} (hc : 1 + c ≤ W) : Function.Injective (tgt1 (N := N) hc) := by
  intro j j' h
  rw [eq_ix2 j, eq_ix2 j']
  have h0 : (j 0) = (j' 0) := congrFun h 0
  have h1 : (1 + (j 1).val) = (1 + (j' 1).val) := congrArg Fin.val (congrFun h 1)
  have h1' : j 1 = j' 1 := Fin.ext (by omega)
  rw [h0, h1']

/-- The scatter's own index arithmetic, for these dimension numbers and the start index 1: update entry `(r, j)` lands
    at `(r, 1 + j)`, inside the operand when `1 + c ≤ W`. -/
theorem resultIdx_cols {N W c : ℕ} (hc : 1 + c ≤ W) (d : ScatterDims (Sm N W) S1 (Sm N c))
    (h1 : d.updateWindowDims = [0, 1]) (h2 : d.insertedWindowDims = []) (h3 : d.scatterDimsToOperandDims = [1])
    (h4 : d.indexVectorDim = 0) (idx : IVec S1 32) (hidx : ∀ k, idx k = 1#32) (j : (Sm N c).Idx) :
    d.resultIdx? j idx = some (tgt1 hc j) := by
  obtain ⟨uw, iw, sd, iv, wf⟩ := d
  dsimp only at h1 h2 h3 h4
  subst h1 h2 h3 h4
  have hs0 : ScatterDims.start (⟨[0, 1], [], [1], 0, wf⟩ : ScatterDims (Sm N W) S1 (Sm N c)) j idx 0 = 0 := by
    rfl
  have hs1 : ScatterDims.start (⟨[0, 1], [], [1], 0, wf⟩ : ScatterDims (Sm N W) S1 (Sm N c)) j idx 1 = 1 := by
    show (idx _).toInt = 1
    rw [hidx]
    rfl
  have hw0 : ScatterDims.window (⟨[0, 1], [], [1], 0, wf⟩ : ScatterDims (Sm N W) S1 (Sm N c)) j 0 = (j 0).val := by
    rfl
  have hw1 : ScatterDims.window (⟨[0, 1], [], [1], 0, wf⟩ : ScatterDims (Sm N W) S1 (Sm N c)) j 1 = (j 1).val := by
    rfl
  have H : ∀ a, 0 ≤ ScatterDims.start (⟨[0, 1], [], [1], 0, wf⟩ : ScatterDims (Sm N W) S1 (Sm N c)) j idx a
        + ScatterDims.window (⟨[0, 1], [], [1], 0, wf⟩ : ScatterDims (Sm N W) S1 (Sm N c)) j a
      ∧ ScatterDims.start (⟨[0, 1], [], [1], 0, wf⟩ : ScatterDims (Sm N W) S1 (Sm N c)) j idx a
        + ScatterDims.window (⟨[0, 1], [], [1], 0, wf⟩ : ScatterDims (Sm N W) S1 (Sm N c)) j a < (Sm N W).size a := by
    intro a
    match a with
    | ⟨0, _⟩ =>
      rw [show (⟨0, _⟩ : Fin (Sm N W).rank) = 0 from rfl, hs0, hw0]
      have := idx2_lt0 j
      constructor
      · omega
      · show (0 : ℤ) + ((j 0).val : ℤ) < (N : ℤ); omega
    | ⟨1, _⟩ =>
      rw [show (⟨1, _⟩ : Fin (Sm N W).rank) = 1 from rfl, hs1, hw1]
      have := idx2_lt1 j
      constructor
      · omega
      · show (1 : ℤ) + ((j 1).val : ℤ) < (W : ℤ); omega
  unfold ScatterDims.resultIdx?
  rw [dif_pos H]
  refine congrArg some (funext fun a => ?_)
  match a with
  | ⟨0, _⟩ =>
    apply Fin.ext
    show (ScatterDims.start (⟨[0, 1], [], [1], 0, wf⟩ : ScatterDims (Sm N W) S1 (Sm N c)) j idx 0 + ScatterDims.window (⟨[0, 1], [], [1], 0, wf⟩ : ScatterDims (Sm N W) S1 (Sm N c)) j 0).toNat = (j 0).val
    rw [hs0, hw0]; omega
  | ⟨1, _⟩ =>
    apply Fin.ext
    show (ScatterDims.start (⟨[0, 1], [], [1], 0, wf⟩ : ScatterDims (Sm N W) S1 (Sm N c)) j idx 1 + ScatterDims.window (⟨[0, 1], [], [1], 0, wf⟩ : ScatterDims (Sm N W) S1 (Sm N c)) j 1).toNat = 1 + (j 1).val
    rw [hs1, hw1]; omega

end Parcor.Scatter

end
-- ==== Proof.HostStep.lean ====
/-
  One step of the recursion on the whole array, as the host states it.

  The array has 2097152 rows of 25 coefficients.  Step `m` slices columns `1 … m-1` of the running array, reverses that
  slice along the columns, multiplies it by column `m` of the coefficients repeated across the columns, adds, and writes
  the result back over columns `1 … m-1` with a scatter at the single start index `1`.  `Host.step` is that composite for
  any `3 ≤ m ≤ 24` (`Host.step2`: the first step, nothing is repeated), and `Host.step_apply` reads it at an entry: it is
  `rowStep` on the row through that entry.  As on a tile, the sum and the product are the instance's own.
-/
import proofs.«136782_j21878563405828_2_alg».proof.Proof.TileStep
import proofs.«136782_j21878563405828_2_alg».proof.Proof.LibScatterSet

noncomputable section

namespace Parcor.Host

open Idealize.ShloMosaic Idealize.ShloMosaic.ValueIdx Parcor.Scatter

/-- All the rows, `c` columns. -/
abbrev Sh (c : ℕ) : Shape := Sm 2097152 c

/-- Columns `o … o + c - 1` of the 25 are a block. -/
theorem slices_cols (o c : ℕ) (h : o + c ≤ 25) : (Sh 25).Slices ![0, o] (Sh c) :=
  ⟨rfl, fun a => match a with
    | ⟨0, _⟩ => Nat.le_of_eq (Nat.zero_add _)
    | ⟨1, _⟩ => h⟩

/-- One column repeats across any number of columns. -/
theorem bcast_cols (c : ℕ) : (Sh 1).BroadcastsInDim (Sh c) ![0, 1] :=
  ⟨fun a b h => by
      have hid : ∀ q : Fin 2, (![0, 1] : Fin 2 → Fin 2) q = q := by decide
      exact (hid a).symm.trans (h.trans (hid b)),
   fun a => match a with
    | ⟨0, _⟩ => Or.inr rfl
    | ⟨1, _⟩ => Or.inl rfl⟩

variable {F : FTy → Type} [FloatOps F]

/-- Columns `o … o + c - 1` of an array. -/
def cols (o c : ℕ) (h : o + c ≤ 25) (a : FVec F (Sh 25) .f32) : FVec F (Sh c) .f32 :=
  extractStridedSlice (Sh c) ![0, o] a (slices_cols o c h)

/-- The new columns `1 … m - 1` of step `m`. -/
def fresh (m : ℕ) (h3 : 3 ≤ m) (h : m ≤ 24) (k a : FVec F (Sh 25) .f32) : FVec F (Sh (m - 1)) .f32 :=
  addf (cols 1 (m - 1) (by omega) a)
    (mulf (broadcastInDim (Sh (m - 1)) ![0, 1] (bcast_cols _) (cols m 1 (by omega) k))
      (Host.reverse [1] (cols 1 (m - 1) (by omega) a)))

/-- Step `m` on the whole array, `3 ≤ m ≤ 24`: the new columns written over columns `1 … m - 1`. -/
def step (m : ℕ) (h3 : 3 ≤ m) (h : m ≤ 24) (d : ScatterDims (Sh 25) S1 (Sh (m - 1))) (idx : IVec S1 32)
    (k a : FVec F (Sh 25) .f32) : FVec F (Sh 25) .f32 :=
  Host.scatter d (fun _ b => b) a idx (fresh m h3 h k a)

/-- Step `2` on the whole array. -/
def step2 (d : ScatterDims (Sh 25) S1 (Sh 1)) (idx : IVec S1 32) (k a : FVec F (Sh 25) .f32) : FVec F (Sh 25) .f32 :=
  Host.scatter d (fun _ b => b) a idx
    (addf (cols 1 1 (by omega) a) (mulf (cols 2 1 (by omega) k) (Host.reverse [1] (cols 1 1 (by omega) a))))

/-! ### Read at an entry -/

theorem cols_apply (o c : ℕ) (h : o + c ≤ 25) (a : FVec F (Sh 25) .f32) (r : Fin 2097152) (i : Fin c) :
    cols o c h a (ix2 r i) = a (ix2 r ⟨o + i.val, by omega⟩) :=
  extractStridedSlice_apply ![0, o] a (slices_cols o c h) (ix2 r i) _ (fun b => match b with
    | ⟨0, _⟩ => (Nat.zero_add _).symm
    | ⟨1, _⟩ => rfl)

theorem bcast_apply (c : ℕ) (x : FVec F (Sh 1) .f32) (r : Fin 2097152) (i : Fin c) :
    broadcastInDim (Sh c) ![0, 1] (bcast_cols c) x (ix2 r i) = x (ix2 r 0) :=
  broadcastInDim_apply ![0, 1] (bcast_cols c) x (ix2 r i) (ix2 r 0) (fun b => match b with
    | ⟨0, _⟩ => (if_neg (by show ¬ (2097152 = 1); omega)).symm
    | ⟨1, _⟩ => (if_pos rfl).symm)

theorem reverse_apply {c : ℕ} (x : FVec F (Sh c) .f32) (r : Fin 2097152) (i : Fin c) :
    Host.reverse [1] x (ix2 r i) = x (ix2 r i.rev) := by
  unfold Host.reverse
  refine congrArg x (funext fun a => ?_)
  match a with
  | ⟨0, _⟩ => rfl
  | ⟨1, _⟩ => rfl

theorem fresh_apply (m : ℕ) (h3 : 3 ≤ m) (h : m ≤ 24) (k a : FVec F (Sh 25) .f32) (r : Fin 2097152) (i : Fin (m - 1)) :
    fresh m h3 h k a (ix2 r i)
      = FloatOps.addf (a (ix2 r ⟨1 + i.val, by omega⟩))
          (FloatOps.mulf (k (ix2 r ⟨m, by omega⟩)) (a (ix2 r ⟨m - 1 - i.val, by omega⟩))) := by
  show FloatOps.addf (cols 1 (m - 1) _ a (ix2 r i))
    (FloatOps.mulf (broadcastInDim (Sh (m - 1)) ![0, 1] (bcast_cols _) (cols m 1 _ k) (ix2 r i))
      (Host.reverse [1] (cols 1 (m - 1) _ a) (ix2 r i))) = _
  rw [cols_apply, bcast_apply, cols_apply, reverse_apply, cols_apply]
  have e : (⟨1 + i.rev.val, by have := i.rev.isLt; omega⟩ : Fin 25) = ⟨m - 1 - i.val, by omega⟩ :=
    Fin.ext (by show 1 + i.rev.val = m - 1 - i.val; rw [Fin.val_rev]; omega)
  rw [e]
  rfl

/-- Row `r` of the array, indexed by the naturals (indices wrap beyond 24; none is read there). -/
def rowOf (a : FVec F (Sh 25) .f32) (r : Fin 2097152) : ℕ → F .f32 :=
  fun j => a (ix2 r ⟨j % 25, Nat.mod_lt _ (by decide)⟩)

theorem rowOf_of_lt (a : FVec F (Sh 25) .f32) (r : Fin 2097152) (j : ℕ) (hj : j < 25) : rowOf a r j = a (ix2 r ⟨j, hj⟩) :=
  congrArg a (congrArg (fun q => ix2 r q) (Fin.ext (Nat.mod_eq_of_lt hj)))

/-- The written-back columns: an entry in columns `1 … c` holds the update, any other the operand. -/
theorem writeback_apply {c : ℕ} (hc : 1 + c ≤ 25) (d : ScatterDims (Sh 25) S1 (Sh c))
    (h1 : d.updateWindowDims = [0, 1]) (h2 : d.insertedWindowDims = []) (h3 : d.scatterDimsToOperandDims = [1])
    (h4 : d.indexVectorDim = 0) (idx : IVec S1 32) (hidx : ∀ k, idx k = 1#32)
    (a : FVec F (Sh 25) .f32) (upd : FVec F (Sh c) .f32) (r : Fin 2097152) (j : Fin 25) :
    Host.scatter d (fun _ b => b) a idx upd (ix2 r j)
      = if hj : 1 ≤ j.val ∧ j.val < 1 + c then upd (ix2 r ⟨j.val - 1, by omega⟩) else a (ix2 r j) := by
  have htgt := resultIdx_cols hc d h1 h2 h3 h4 idx hidx
  by_cases hj : 1 ≤ j.val ∧ j.val < 1 + c
  · rw [dif_pos hj]
    have e : ix2 r j = tgt1 hc (ix2 r ⟨j.val - 1, by omega⟩) := by
      unfold tgt1
      exact congrArg (fun q => ix2 r q) (Fin.ext (by show j.val = 1 + (j.val - 1); omega))
    rw [e]
    exact scatter_set_apply_hit d a idx upd (tgt1 hc) htgt (tgt1_injective hc) _
  · rw [dif_neg hj]
    refine scatter_set_apply d a idx upd (tgt1 hc) htgt (tgt1_injective hc) _ (fun j' hj' => hj ?_)
    have h1' : (1 + (j' 1).val) = j.val := congrArg Fin.val (congrFun hj' 1)
    have := idx2_lt1 j'
    omega

/-- Step `m` on the whole array is the row step on every row. -/
theorem step_apply (m : ℕ) (h3 : 3 ≤ m) (h : m ≤ 24) (d : ScatterDims (Sh 25) S1 (Sh (m - 1)))
    (h1 : d.updateWindowDims = [0, 1]) (h2 : d.insertedWindowDims = []) (hd3 : d.scatterDimsToOperandDims = [1])
    (h4 : d.indexVectorDim = 0) (idx : IVec S1 32) (hidx : ∀ k, idx k = 1#32)
    (k a : FVec F (Sh 25) .f32) (r : Fin 2097152) (j : Fin 25) :
    step m h3 h d idx k a (ix2 r j) = rowStep FloatOps.addf FloatOps.mulf m (rowOf k r) (rowOf a r) j.val := by
  unfold step rowStep
  rw [writeback_apply (by omega) d h1 h2 hd3 h4 idx hidx]
  by_cases hj : 1 ≤ j.val ∧ j.val < m
  · rw [dif_pos (by omega), if_pos hj, fresh_apply, rowOf_of_lt a r j.val j.isLt, rowOf_of_lt k r m (by omega),
      rowOf_of_lt a r (m - j.val) (by omega)]
    have e1 : (⟨1 + (j.val - 1), by omega⟩ : Fin 25) = j := Fin.ext (by show 1 + (j.val - 1) = j.val; omega)
    have e2 : (⟨m - 1 - (j.val - 1), by omega⟩ : Fin 25) = ⟨m - j.val, by omega⟩ :=
      Fin.ext (by show m - 1 - (j.val - 1) = m - j.val; omega)
    simp only [e1, e2]
  · rw [dif_neg (by omega), if_neg hj, rowOf_of_lt a r j.val j.isLt]

/-- Step `2` on the whole array is the row step on every row. -/
theorem step2_apply (d : ScatterDims (Sh 25) S1 (Sh 1))
    (h1 : d.updateWindowDims = [0, 1]) (h2 : d.insertedWindowDims = []) (hd3 : d.scatterDimsToOperandDims = [1])
    (h4 : d.indexVectorDim = 0) (idx : IVec S1 32) (hidx : ∀ k, idx k = 1#32)
    (k a : FVec F (Sh 25) .f32) (r : Fin 2097152) (j : Fin 25) :
    step2 d idx k a (ix2 r j) = rowStep FloatOps.addf FloatOps.mulf 2 (rowOf k r) (rowOf a r) j.val := by
  unfold step2 rowStep
  rw [writeback_apply (by omega) d h1 h2 hd3 h4 idx hidx]
  by_cases hj : 1 ≤ j.val ∧ j.val < 2
  · have hj1 : j = ⟨1, by decide⟩ := Fin.ext (by show j.val = 1; omega)
    subst hj1
    rw [dif_pos (by omega), if_pos hj]
    show FloatOps.addf (cols 1 1 _ a (ix2 r _)) (FloatOps.mulf (cols 2 1 _ k (ix2 r _)) (Host.reverse [1] (cols 1 1 _ a) (ix2 r _))) = _
    rw [reverse_apply, cols_apply, cols_apply, cols_apply]
    show _ = FloatOps.addf (rowOf a r 1) (FloatOps.mulf (rowOf k r 2) (rowOf a r 1))
    rw [rowOf_of_lt a r 1 (by omega), rowOf_of_lt k r 2 (by omega)]
    rfl
  · rw [dif_neg (by omega), if_neg hj, rowOf_of_lt a r j.val j.isLt]

/-- The whole array after steps `2, …, 24`: every row the recursion of that row of the coefficients. -/
def lpc (x : FVec F (Sh 25) .f32) : FVec F (Sh 25) .f32 :=
  fun i => rowLpc FloatOps.addf FloatOps.mulf (rowOf x (i 0)) 23 (i 1).val

end Parcor.Host

end
-- ==== Proof.KernelValue.lean ====
/-
  The kernel's result array as one function of the argument array.

  The body turns its block of 8192 rows so that the coefficient axis comes first, steps `2, …, 24` on that tile and turns
  it back (`body_eq`: the body's named values are the stages of `Tile.run`, piece by piece), so row `r` of what a grid
  point writes back is the recursion of row `r` of the block it was handed (`Tile.back_run_apply`).  Point `t` is handed
  rows `8192 t … 8192 t + 8191` of the argument array and writes back the same rows of the result (the two windows'
  index maps are `t ↦ (t, 0)`, decided over the 256 points), every row lies in exactly one such block, and so the result
  array is `Host.lpc` of the argument array: every row the recursion of that row.
-/
import proofs.«136782_j21878563405828_2_alg».proof.Proof.FrameKernelIdeal
import proofs.«136782_j21878563405828_2_alg».proof.Proof.KernelPieces
import proofs.«136782_j21878563405828_2_alg».proof.Proof.HostStep
import Idealize.ShloMosaic.Lib.Pipeline.Value

set_option maxRecDepth 16384

noncomputable section

namespace Cert.KernelIdeal.Whole

open Cert.KernelIdeal Cert.KernelIdeal.Gen Cert.KernelIdeal.GenP Cert.KernelIdeal.Pieces
open Idealize.ShloMosaic Idealize.ShloMosaic.TcCoe Idealize.SL.Sem Idealize.ShloMosaic.ValueIdx Parcor
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- What the body stores: its block turned, stepped `2, …, 24` and turned back. -/
theorem body_eq (x0 : Vec F S8192x25 .f32) : out0_1 x0 = Tile.back (Tile.run (Tile.tr x0) 23) := by
  unfold out0_1
  rw [View.canon_unit_zero hz]
  simp only [View.ld_unit_zero (S := S8192x25) hz,
    bv1, bv45, bv56, bv107, bv108, bv109, bv110, bv111, bv112, bv113, bv114, bv115, bv116, bv164, bv165, bv166, bv167, bv168, bv169, bv170, bv171, bv172, bv173, bv174, bv175, bv176, bv230, bv231, bv232, bv233, bv234, bv235, bv236, bv279, bv280, bv281, bv282, bv283, bv284, bv285, bv286, bv287, bv288, bv289, bv290, bv291, bv292, bv293, bv294, bv295, bv296, bv332, bv333, bv356, bv389, bv416, bv450, bv451, bv475, bv476,
    pay10_eq, pay11_eq, pay12_eq, pay13_eq, pay14_eq, pay15_eq, pay16_eq, pay17_eq, pay18_eq, pay19_eq, pay1_eq, pay20_eq, pay21_eq, pay22_eq, pay23_eq, pay24_eq, pay25_eq, pay26_eq, pay27_eq, pay28_eq, pay29_eq, pay2_eq, pay30_eq, pay31_eq, pay32_eq, pay33_eq, pay34_eq, pay35_eq, pay36_eq, pay37_eq, pay38_eq, pay39_eq, pay3_eq, pay40_eq, pay41_eq, pay42_eq, pay43_eq, pay44_eq, pay45_eq, pay46_eq, pay47_eq, pay48_eq, pay49_eq, pay4_eq, pay50_eq, pay51_eq, pay52_eq, pay53_eq, pay54_eq, pay55_eq, pay56_eq, pay57_eq, pay58_eq, pay59_eq, pay5_eq, pay60_eq, pay61_eq, pay6_eq, pay7_eq, pay8_eq, pay9_eq]

/-- An entry of the stored block against an entry of the whole result, given that the block's row is the array's
    row and the two column coordinates agree. -/
theorem block_entry (x0 : Vec F S8192x25 .f32) (X : FVec F (Host.Sh 25) .f32) (r : Fin 8192) (q : Fin 25)
    (ri : Fin 2097152) (qi : Fin 25) (hrow : ∀ q' : Fin 25, x0 (ix2 r q') = X (ix2 ri q')) (hcol : qi.val = q.val) :
    Tile.back (Tile.run (Tile.tr x0) 23) (ix2 r q) = Host.lpc X (ix2 ri qi) := by
  rw [Tile.back_run_apply]
  show rowLpc _ _ (Tile.rowOf x0 r) 23 q.val = rowLpc _ _ (Host.rowOf X ri) 23 qi.val
  rw [hcol]
  exact congrArg (fun k => rowLpc FloatOps.addf FloatOps.mulf k 23 q.val) (funext fun j => hrow _)

/-- The two windows' index maps, decided over the grid: point `t` is block `(t, 0)` of both arrays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- What point `t` writes back is block `t` of the recursion of the argument array's rows. -/
theorem flushed_eq (c : Dev nD) (t : Fin cfg0.N) :
    (dats m 0 c).flushed 1 t = ((cfg0.win 1).blk t).view.read (Elt F) (Host.lpc (V m c main_arg0)) := by
  show (cfg0.win 1).cut (grid0.coords t) ((dats m 0 c).after 1 t) = _
  rw [after0_1, body_eq]
  obtain ⟨e0, e1, e2, e3⟩ := idx_facts t
  have hN : grid0.N = 256 := N_0
  have ht : t.val < grid0.N := t.isLt
  funext y
  obtain ⟨r, q, rfl⟩ : ∃ (r : Fin 8192) (q : Fin 25), y = ix2 r q := ⟨y 0, y 1, eq_ix2 y⟩
  show Tile.back (Tile.run (Tile.tr (iblk m c 0 t)) 23) (ix2 r q)
    = Host.lpc (V m c main_arg0) (((cfg0.win 1).blk t).view.emb (ix2 r q))
  have hemb : ((cfg0.win 1).blk t).view.emb (ix2 r q) = ix2 (⟨t.val * 8192 + r.val, by omega⟩ : Fin 2097152) q := by
    funext a; apply Fin.ext
    match a with
    | ⟨0, _⟩ => show win0_1.index t (0 : Fin 2) * 8192 + 1 * r.val = t.val * 8192 + r.val; omega
    | ⟨1, _⟩ => show win0_1.index t (1 : Fin 2) * 25 + 1 * q.val = q.val; omega
  rw [hemb]
  refine block_entry _ _ r q _ q (fun q' => ?_) rfl
  show V m c main_arg0 (((cfg0.win 0).blk t).view.emb (ix2 r q')) = _
  refine congrArg (V m c main_arg0) (funext fun a => Fin.ext ?_)
  match a with
  | ⟨0, _⟩ => show win0_0.index t (0 : Fin 2) * 8192 + 1 * r.val = t.val * 8192 + r.val; omega
  | ⟨1, _⟩ => show win0_0.index t (1 : Fin 2) * 25 + 1 * q'.val = q'.val; omega

/-- An index of the array is in point `t`'s block iff each coordinate is in the block's range on its axis. -/
theorem mem_blk (t : Fin cfg0.N) (i : S2097152x25.Idx) :
    i ∈ ((cfg0.win 1).blk t).view.set ↔ ∀ a : Fin 2, win0_1.index t a * S8192x25.size a ≤ (i a).val
      ∧ (i a).val < win0_1.index t a * S8192x25.size a + S8192x25.size a := by
  show i ∈ ((View.whole main_v0).slice (win0_1.rect t)).set ↔ _
  rw [View.set_slice_whole, Rect.mem_set_unit]
  exact Iff.rfl

/-- Every entry of the result lies in some point's block: row `r` in the block of point `r / 8192`. -/
theorem cover (i : S2097152x25.Idx) : ∃ t : Fin cfg0.N, (cfg0.win 1).flush t = true ∧ i ∈ ((cfg0.win 1).blk t).view.set := by
  have hi0 : (i 0).val < 2097152 := (i 0).isLt
  have hi1 : (i 1).val < 25 := (i 1).isLt
  have hN : grid0.N = 256 := N_0
  let t : Fin cfg0.N := ⟨(i 0).val / 8192, by show (i 0).val / 8192 < grid0.N; omega⟩
  obtain ⟨e0, e1, e2, e3⟩ := idx_facts t
  have ht : t.val = (i 0).val / 8192 := rfl
  refine ⟨t, flush0_1 t, ?_⟩
  rw [mem_blk]
  intro a
  match a with
  | ⟨0, _⟩ =>
    show win0_1.index t (0 : Fin 2) * 8192 ≤ (i 0).val ∧ (i 0).val < win0_1.index t (0 : Fin 2) * 8192 + 8192
    omega
  | ⟨1, _⟩ =>
    show win0_1.index t (1 : Fin 2) * 25 ≤ (i 1).val ∧ (i 1).val < win0_1.index t (1 : Fin 2) * 25 + 25
    omega

/-- The result array after the run: the recursion of every row of the argument array. -/
theorem final (c : Dev nD) : (dats m 0 c).arrAt 1 cfg0.N = Host.lpc (m ((c : Thread nD τ).loc main_arg0)) :=
  ((dats m 0 c).arrAt_eq_of_cover 1 (Host.lpc (V m c main_arg0)) (fun t _ => flushed_eq m c t) cover).trans
    (congrArg Host.lpc (V_main_arg0 m c))

/-- The kernel's run, read: every weakly fair execution terminates with the result array at the recursion of the
    argument array's rows and the argument unchanged. -/
theorem run : θ_run defs (onTc (τ := τ) (main (F := F))) ⟨m, fun _ => 0, ρ⟩ fun r => ∀ c : Dev nD,
      r.2.mem ((c : Thread nD τ).loc main_v0) = Host.lpc (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Whole

end
-- ==== Proof.RefSteps.lean ====
/-
  The reference's steps, one by one.

  The host program's run is stated over named intermediate arrays: the array after each step and the slice each next
  step starts from.  Each array-after-a-step is `Host.step` (or `Host.step2`) of the array before it — by unfolding both
  sides to the same slice, reversal, product, sum and write-back — so every row of it is the row recursion that far
  (`row_m`, by induction spelt out step by step: a step reads the row before it only at entries below 25).  `out` is the
  program's result, the array after step 24, and `out_eq`: it is `Parcor.lpc` of the argument array.
-/
import proofs.«136782_j21878563405828_2_alg».proof.Proof.Gen.ReferenceIdeal.Run
import proofs.«136782_j21878563405828_2_alg».proof.Proof.HostStep

set_option maxRecDepth 65536

noncomputable section

namespace Cert.ReferenceIdeal.Steps

open Idealize.ShloMosaic Idealize.ShloMosaic.ValueIdx Idealize.ShloMosaic.StableHlo Idealize.SL.Sem
open Cert.ReferenceIdeal Cert.ReferenceIdeal.Gen Cert.ReferenceIdeal.Value Idealize.ShloMosaic.TcCoe Parcor

variable {F : FTy → Type} [FloatOps F]

/-- The scatters' one start index: the constant 1. -/
abbrev idx1 : IVec S1 32 := broadcastInDim S1 ![] bcast_S_S1 (constantI S_ 32 1#32)

theorem res2 (V0 : Valuation τ sig (Elt F)) :
    res_main_v6 V0 = Host.step2 scatter_S2097152x25_S1_S2097152x1_01_n_1_0 idx1 (V0 (Proc.devRef .tc main_arg0)) (V0 (Proc.devRef .tc main_arg0)) := rfl

theorem res3 (V0 : Valuation τ sig (Elt F)) :
    res_main_v14 V0 = Host.step 3 (by decide) (by decide) scatter_S2097152x25_S1_S2097152x2_01_n_1_0 idx1 (V0 (Proc.devRef .tc main_arg0)) (res_main_v6 V0) := rfl

theorem res4 (V0 : Valuation τ sig (Elt F)) :
    res_main_v22 V0 = Host.step 4 (by decide) (by decide) scatter_S2097152x25_S1_S2097152x3_01_n_1_0 idx1 (V0 (Proc.devRef .tc main_arg0)) (res_main_v14 V0) := rfl

theorem res5 (V0 : Valuation τ sig (Elt F)) :
    res_main_v30 V0 = Host.step 5 (by decide) (by decide) scatter_S2097152x25_S1_S2097152x4_01_n_1_0 idx1 (V0 (Proc.devRef .tc main_arg0)) (res_main_v22 V0) := rfl

theorem res6 (V0 : Valuation τ sig (Elt F)) :
    res_main_v38 V0 = Host.step 6 (by decide) (by decide) scatter_S2097152x25_S1_S2097152x5_01_n_1_0 idx1 (V0 (Proc.devRef .tc main_arg0)) (res_main_v30 V0) := rfl

theorem res7 (V0 : Valuation τ sig (Elt F)) :
    res_main_v46 V0 = Host.step 7 (by decide) (by decide) scatter_S2097152x25_S1_S2097152x6_01_n_1_0 idx1 (V0 (Proc.devRef .tc main_arg0)) (res_main_v38 V0) := rfl

theorem res8 (V0 : Valuation τ sig (Elt F)) :
    res_main_v54 V0 = Host.step 8 (by decide) (by decide) scatter_S2097152x25_S1_S2097152x7_01_n_1_0 idx1 (V0 (Proc.devRef .tc main_arg0)) (res_main_v46 V0) := rfl

theorem res9 (V0 : Valuation τ sig (Elt F)) :
    res_main_v62 V0 = Host.step 9 (by decide) (by decide) scatter_S2097152x25_S1_S2097152x8_01_n_1_0 idx1 (V0 (Proc.devRef .tc main_arg0)) (res_main_v54 V0) := rfl

theorem res10 (V0 : Valuation τ sig (Elt F)) :
    res_main_v70 V0 = Host.step 10 (by decide) (by decide) scatter_S2097152x25_S1_S2097152x9_01_n_1_0 idx1 (V0 (Proc.devRef .tc main_arg0)) (res_main_v62 V0) := rfl

theorem res11 (V0 : Valuation τ sig (Elt F)) :
    res_main_v78 V0 = Host.step 11 (by decide) (by decide) scatter_S2097152x25_S1_S2097152x10_01_n_1_0 idx1 (V0 (Proc.devRef .tc main_arg0)) (res_main_v70 V0) := rfl

theorem res12 (V0 : Valuation τ sig (Elt F)) :
    res_main_v86 V0 = Host.step 12 (by decide) (by decide) scatter_S2097152x25_S1_S2097152x11_01_n_1_0 idx1 (V0 (Proc.devRef .tc main_arg0)) (res_main_v78 V0) := rfl

theorem res13 (V0 : Valuation τ sig (Elt F)) :
    res_main_v94 V0 = Host.step 13 (by decide) (by decide) scatter_S2097152x25_S1_S2097152x12_01_n_1_0 idx1 (V0 (Proc.devRef .tc main_arg0)) (res_main_v86 V0) := rfl

theorem res14 (V0 : Valuation τ sig (Elt F)) :
    res_main_v102 V0 = Host.step 14 (by decide) (by decide) scatter_S2097152x25_S1_S2097152x13_01_n_1_0 idx1 (V0 (Proc.devRef .tc main_arg0)) (res_main_v94 V0) := rfl

theorem res15 (V0 : Valuation τ sig (Elt F)) :
    res_main_v110 V0 = Host.step 15 (by decide) (by decide) scatter_S2097152x25_S1_S2097152x14_01_n_1_0 idx1 (V0 (Proc.devRef .tc main_arg0)) (res_main_v102 V0) := rfl

theorem res16 (V0 : Valuation τ sig (Elt F)) :
    res_main_v118 V0 = Host.step 16 (by decide) (by decide) scatter_S2097152x25_S1_S2097152x15_01_n_1_0 idx1 (V0 (Proc.devRef .tc main_arg0)) (res_main_v110 V0) := rfl

theorem res17 (V0 : Valuation τ sig (Elt F)) :
    res_main_v126 V0 = Host.step 17 (by decide) (by decide) scatter_S2097152x25_S1_S2097152x16_01_n_1_0 idx1 (V0 (Proc.devRef .tc main_arg0)) (res_main_v118 V0) := rfl

theorem res18 (V0 : Valuation τ sig (Elt F)) :
    res_main_v134 V0 = Host.step 18 (by decide) (by decide) scatter_S2097152x25_S1_S2097152x17_01_n_1_0 idx1 (V0 (Proc.devRef .tc main_arg0)) (res_main_v126 V0) := rfl

theorem res19 (V0 : Valuation τ sig (Elt F)) :
    res_main_v142 V0 = Host.step 19 (by decide) (by decide) scatter_S2097152x25_S1_S2097152x18_01_n_1_0 idx1 (V0 (Proc.devRef .tc main_arg0)) (res_main_v134 V0) := rfl

theorem res20 (V0 : Valuation τ sig (Elt F)) :
    res_main_v150 V0 = Host.step 20 (by decide) (by decide) scatter_S2097152x25_S1_S2097152x19_01_n_1_0 idx1 (V0 (Proc.devRef .tc main_arg0)) (res_main_v142 V0) := rfl

theorem res21 (V0 : Valuation τ sig (Elt F)) :
    res_main_v158 V0 = Host.step 21 (by decide) (by decide) scatter_S2097152x25_S1_S2097152x20_01_n_1_0 idx1 (V0 (Proc.devRef .tc main_arg0)) (res_main_v150 V0) := rfl

theorem res22 (V0 : Valuation τ sig (Elt F)) :
    res_main_v166 V0 = Host.step 22 (by decide) (by decide) scatter_S2097152x25_S1_S2097152x21_01_n_1_0 idx1 (V0 (Proc.devRef .tc main_arg0)) (res_main_v158 V0) := rfl

theorem res23 (V0 : Valuation τ sig (Elt F)) :
    res_main_v174 V0 = Host.step 23 (by decide) (by decide) scatter_S2097152x25_S1_S2097152x22_01_n_1_0 idx1 (V0 (Proc.devRef .tc main_arg0)) (res_main_v166 V0) := rfl

/-- The program's result: the array after step 24. -/
def out (V0 : Valuation τ sig (Elt F)) : FVec F (Host.Sh 25) .f32 :=
  Host.step 24 (by decide) (by decide) scatter_S2097152x25_S1_S2097152x23_01_n_1_0 idx1 (V0 (Proc.devRef .tc main_arg0)) (res_main_v174 V0)

/-! ### Row by row -/

theorem row2 (V0 : Valuation τ sig (Elt F)) (r : Fin 2097152) (j : ℕ) (hj : j < 25) :
    res_main_v6 V0 (ix2 r ⟨j, hj⟩) = rowLpc FloatOps.addf FloatOps.mulf (Host.rowOf (V0 (Proc.devRef .tc main_arg0)) r) 1 j := by
  rw [res2, Host.step2_apply _ rfl rfl rfl rfl idx1 (fun _ => rfl)]
  rfl

theorem row3 (V0 : Valuation τ sig (Elt F)) (r : Fin 2097152) (j : ℕ) (hj : j < 25) :
    res_main_v14 V0 (ix2 r ⟨j, hj⟩) = rowLpc FloatOps.addf FloatOps.mulf (Host.rowOf (V0 (Proc.devRef .tc main_arg0)) r) 2 j := by
  rw [res3, Host.step_apply 3 _ _ _ rfl rfl rfl rfl idx1 (fun _ => rfl)]
  exact rowStep_congr _ _ 3 (by decide) _ _ _
    (fun j' hj' => (Host.rowOf_of_lt _ r j' hj').trans (row2 V0 r j' hj')) j hj

theorem row4 (V0 : Valuation τ sig (Elt F)) (r : Fin 2097152) (j : ℕ) (hj : j < 25) :
    res_main_v22 V0 (ix2 r ⟨j, hj⟩) = rowLpc FloatOps.addf FloatOps.mulf (Host.rowOf (V0 (Proc.devRef .tc main_arg0)) r) 3 j := by
  rw [res4, Host.step_apply 4 _ _ _ rfl rfl rfl rfl idx1 (fun _ => rfl)]
  exact rowStep_congr _ _ 4 (by decide) _ _ _
    (fun j' hj' => (Host.rowOf_of_lt _ r j' hj').trans (row3 V0 r j' hj')) j hj

theorem row5 (V0 : Valuation τ sig (Elt F)) (r : Fin 2097152) (j : ℕ) (hj : j < 25) :
    res_main_v30 V0 (ix2 r ⟨j, hj⟩) = rowLpc FloatOps.addf FloatOps.mulf (Host.rowOf (V0 (Proc.devRef .tc main_arg0)) r) 4 j := by
  rw [res5, Host.step_apply 5 _ _ _ rfl rfl rfl rfl idx1 (fun _ => rfl)]
  exact rowStep_congr _ _ 5 (by decide) _ _ _
    (fun j' hj' => (Host.rowOf_of_lt _ r j' hj').trans (row4 V0 r j' hj')) j hj

theorem row6 (V0 : Valuation τ sig (Elt F)) (r : Fin 2097152) (j : ℕ) (hj : j < 25) :
    res_main_v38 V0 (ix2 r ⟨j, hj⟩) = rowLpc FloatOps.addf FloatOps.mulf (Host.rowOf (V0 (Proc.devRef .tc main_arg0)) r) 5 j := by
  rw [res6, Host.step_apply 6 _ _ _ rfl rfl rfl rfl idx1 (fun _ => rfl)]
  exact rowStep_congr _ _ 6 (by decide) _ _ _
    (fun j' hj' => (Host.rowOf_of_lt _ r j' hj').trans (row5 V0 r j' hj')) j hj

theorem row7 (V0 : Valuation τ sig (Elt F)) (r : Fin 2097152) (j : ℕ) (hj : j < 25) :
    res_main_v46 V0 (ix2 r ⟨j, hj⟩) = rowLpc FloatOps.addf FloatOps.mulf (Host.rowOf (V0 (Proc.devRef .tc main_arg0)) r) 6 j := by
  rw [res7, Host.step_apply 7 _ _ _ rfl rfl rfl rfl idx1 (fun _ => rfl)]
  exact rowStep_congr _ _ 7 (by decide) _ _ _
    (fun j' hj' => (Host.rowOf_of_lt _ r j' hj').trans (row6 V0 r j' hj')) j hj

theorem row8 (V0 : Valuation τ sig (Elt F)) (r : Fin 2097152) (j : ℕ) (hj : j < 25) :
    res_main_v54 V0 (ix2 r ⟨j, hj⟩) = rowLpc FloatOps.addf FloatOps.mulf (Host.rowOf (V0 (Proc.devRef .tc main_arg0)) r) 7 j := by
  rw [res8, Host.step_apply 8 _ _ _ rfl rfl rfl rfl idx1 (fun _ => rfl)]
  exact rowStep_congr _ _ 8 (by decide) _ _ _
    (fun j' hj' => (Host.rowOf_of_lt _ r j' hj').trans (row7 V0 r j' hj')) j hj

theorem row9 (V0 : Valuation τ sig (Elt F)) (r : Fin 2097152) (j : ℕ) (hj : j < 25) :
    res_main_v62 V0 (ix2 r ⟨j, hj⟩) = rowLpc FloatOps.addf FloatOps.mulf (Host.rowOf (V0 (Proc.devRef .tc main_arg0)) r) 8 j := by
  rw [res9, Host.step_apply 9 _ _ _ rfl rfl rfl rfl idx1 (fun _ => rfl)]
  exact rowStep_congr _ _ 9 (by decide) _ _ _
    (fun j' hj' => (Host.rowOf_of_lt _ r j' hj').trans (row8 V0 r j' hj')) j hj

theorem row10 (V0 : Valuation τ sig (Elt F)) (r : Fin 2097152) (j : ℕ) (hj : j < 25) :
    res_main_v70 V0 (ix2 r ⟨j, hj⟩) = rowLpc FloatOps.addf FloatOps.mulf (Host.rowOf (V0 (Proc.devRef .tc main_arg0)) r) 9 j := by
  rw [res10, Host.step_apply 10 _ _ _ rfl rfl rfl rfl idx1 (fun _ => rfl)]
  exact rowStep_congr _ _ 10 (by decide) _ _ _
    (fun j' hj' => (Host.rowOf_of_lt _ r j' hj').trans (row9 V0 r j' hj')) j hj

theorem row11 (V0 : Valuation τ sig (Elt F)) (r : Fin 2097152) (j : ℕ) (hj : j < 25) :
    res_main_v78 V0 (ix2 r ⟨j, hj⟩) = rowLpc FloatOps.addf FloatOps.mulf (Host.rowOf (V0 (Proc.devRef .tc main_arg0)) r) 10 j := by
  rw [res11, Host.step_apply 11 _ _ _ rfl rfl rfl rfl idx1 (fun _ => rfl)]
  exact rowStep_congr _ _ 11 (by decide) _ _ _
    (fun j' hj' => (Host.rowOf_of_lt _ r j' hj').trans (row10 V0 r j' hj')) j hj

theorem row12 (V0 : Valuation τ sig (Elt F)) (r : Fin 2097152) (j : ℕ) (hj : j < 25) :
    res_main_v86 V0 (ix2 r ⟨j, hj⟩) = rowLpc FloatOps.addf FloatOps.mulf (Host.rowOf (V0 (Proc.devRef .tc main_arg0)) r) 11 j := by
  rw [res12, Host.step_apply 12 _ _ _ rfl rfl rfl rfl idx1 (fun _ => rfl)]
  exact rowStep_congr _ _ 12 (by decide) _ _ _
    (fun j' hj' => (Host.rowOf_of_lt _ r j' hj').trans (row11 V0 r j' hj')) j hj

theorem row13 (V0 : Valuation τ sig (Elt F)) (r : Fin 2097152) (j : ℕ) (hj : j < 25) :
    res_main_v94 V0 (ix2 r ⟨j, hj⟩) = rowLpc FloatOps.addf FloatOps.mulf (Host.rowOf (V0 (Proc.devRef .tc main_arg0)) r) 12 j := by
  rw [res13, Host.step_apply 13 _ _ _ rfl rfl rfl rfl idx1 (fun _ => rfl)]
  exact rowStep_congr _ _ 13 (by decide) _ _ _
    (fun j' hj' => (Host.rowOf_of_lt _ r j' hj').trans (row12 V0 r j' hj')) j hj

theorem row14 (V0 : Valuation τ sig (Elt F)) (r : Fin 2097152) (j : ℕ) (hj : j < 25) :
    res_main_v102 V0 (ix2 r ⟨j, hj⟩) = rowLpc FloatOps.addf FloatOps.mulf (Host.rowOf (V0 (Proc.devRef .tc main_arg0)) r) 13 j := by
  rw [res14, Host.step_apply 14 _ _ _ rfl rfl rfl rfl idx1 (fun _ => rfl)]
  exact rowStep_congr _ _ 14 (by decide) _ _ _
    (fun j' hj' => (Host.rowOf_of_lt _ r j' hj').trans (row13 V0 r j' hj')) j hj

theorem row15 (V0 : Valuation τ sig (Elt F)) (r : Fin 2097152) (j : ℕ) (hj : j < 25) :
    res_main_v110 V0 (ix2 r ⟨j, hj⟩) = rowLpc FloatOps.addf FloatOps.mulf (Host.rowOf (V0 (Proc.devRef .tc main_arg0)) r) 14 j := by
  rw [res15, Host.step_apply 15 _ _ _ rfl rfl rfl rfl idx1 (fun _ => rfl)]
  exact rowStep_congr _ _ 15 (by decide) _ _ _
    (fun j' hj' => (Host.rowOf_of_lt _ r j' hj').trans (row14 V0 r j' hj')) j hj

theorem row16 (V0 : Valuation τ sig (Elt F)) (r : Fin 2097152) (j : ℕ) (hj : j < 25) :
    res_main_v118 V0 (ix2 r ⟨j, hj⟩) = rowLpc FloatOps.addf FloatOps.mulf (Host.rowOf (V0 (Proc.devRef .tc main_arg0)) r) 15 j := by
  rw [res16, Host.step_apply 16 _ _ _ rfl rfl rfl rfl idx1 (fun _ => rfl)]
  exact rowStep_congr _ _ 16 (by decide) _ _ _
    (fun j' hj' => (Host.rowOf_of_lt _ r j' hj').trans (row15 V0 r j' hj')) j hj

theorem row17 (V0 : Valuation τ sig (Elt F)) (r : Fin 2097152) (j : ℕ) (hj : j < 25) :
    res_main_v126 V0 (ix2 r ⟨j, hj⟩) = rowLpc FloatOps.addf FloatOps.mulf (Host.rowOf (V0 (Proc.devRef .tc main_arg0)) r) 16 j := by
  rw [res17, Host.step_apply 17 _ _ _ rfl rfl rfl rfl idx1 (fun _ => rfl)]
  exact rowStep_congr _ _ 17 (by decide) _ _ _
    (fun j' hj' => (Host.rowOf_of_lt _ r j' hj').trans (row16 V0 r j' hj')) j hj

theorem row18 (V0 : Valuation τ sig (Elt F)) (r : Fin 2097152) (j : ℕ) (hj : j < 25) :
    res_main_v134 V0 (ix2 r ⟨j, hj⟩) = rowLpc FloatOps.addf FloatOps.mulf (Host.rowOf (V0 (Proc.devRef .tc main_arg0)) r) 17 j := by
  rw [res18, Host.step_apply 18 _ _ _ rfl rfl rfl rfl idx1 (fun _ => rfl)]
  exact rowStep_congr _ _ 18 (by decide) _ _ _
    (fun j' hj' => (Host.rowOf_of_lt _ r j' hj').trans (row17 V0 r j' hj')) j hj

theorem row19 (V0 : Valuation τ sig (Elt F)) (r : Fin 2097152) (j : ℕ) (hj : j < 25) :
    res_main_v142 V0 (ix2 r ⟨j, hj⟩) = rowLpc FloatOps.addf FloatOps.mulf (Host.rowOf (V0 (Proc.devRef .tc main_arg0)) r) 18 j := by
  rw [res19, Host.step_apply 19 _ _ _ rfl rfl rfl rfl idx1 (fun _ => rfl)]
  exact rowStep_congr _ _ 19 (by decide) _ _ _
    (fun j' hj' => (Host.rowOf_of_lt _ r j' hj').trans (row18 V0 r j' hj')) j hj

theorem row20 (V0 : Valuation τ sig (Elt F)) (r : Fin 2097152) (j : ℕ) (hj : j < 25) :
    res_main_v150 V0 (ix2 r ⟨j, hj⟩) = rowLpc FloatOps.addf FloatOps.mulf (Host.rowOf (V0 (Proc.devRef .tc main_arg0)) r) 19 j := by
  rw [res20, Host.step_apply 20 _ _ _ rfl rfl rfl rfl idx1 (fun _ => rfl)]
  exact rowStep_congr _ _ 20 (by decide) _ _ _
    (fun j' hj' => (Host.rowOf_of_lt _ r j' hj').trans (row19 V0 r j' hj')) j hj

theorem row21 (V0 : Valuation τ sig (Elt F)) (r : Fin 2097152) (j : ℕ) (hj : j < 25) :
    res_main_v158 V0 (ix2 r ⟨j, hj⟩) = rowLpc FloatOps.addf FloatOps.mulf (Host.rowOf (V0 (Proc.devRef .tc main_arg0)) r) 20 j := by
  rw [res21, Host.step_apply 21 _ _ _ rfl rfl rfl rfl idx1 (fun _ => rfl)]
  exact rowStep_congr _ _ 21 (by decide) _ _ _
    (fun j' hj' => (Host.rowOf_of_lt _ r j' hj').trans (row20 V0 r j' hj')) j hj

theorem row22 (V0 : Valuation τ sig (Elt F)) (r : Fin 2097152) (j : ℕ) (hj : j < 25) :
    res_main_v166 V0 (ix2 r ⟨j, hj⟩) = rowLpc FloatOps.addf FloatOps.mulf (Host.rowOf (V0 (Proc.devRef .tc main_arg0)) r) 21 j := by
  rw [res22, Host.step_apply 22 _ _ _ rfl rfl rfl rfl idx1 (fun _ => rfl)]
  exact rowStep_congr _ _ 22 (by decide) _ _ _
    (fun j' hj' => (Host.rowOf_of_lt _ r j' hj').trans (row21 V0 r j' hj')) j hj

theorem row23 (V0 : Valuation τ sig (Elt F)) (r : Fin 2097152) (j : ℕ) (hj : j < 25) :
    res_main_v174 V0 (ix2 r ⟨j, hj⟩) = rowLpc FloatOps.addf FloatOps.mulf (Host.rowOf (V0 (Proc.devRef .tc main_arg0)) r) 22 j := by
  rw [res23, Host.step_apply 23 _ _ _ rfl rfl rfl rfl idx1 (fun _ => rfl)]
  exact rowStep_congr _ _ 23 (by decide) _ _ _
    (fun j' hj' => (Host.rowOf_of_lt _ r j' hj').trans (row22 V0 r j' hj')) j hj

theorem out_apply (V0 : Valuation τ sig (Elt F)) (r : Fin 2097152) (j : ℕ) (hj : j < 25) :
    out V0 (ix2 r ⟨j, hj⟩) = rowLpc FloatOps.addf FloatOps.mulf (Host.rowOf (V0 (Proc.devRef .tc main_arg0)) r) 23 j := by
  unfold out
  rw [Host.step_apply 24 _ _ _ rfl rfl rfl rfl idx1 (fun _ => rfl)]
  exact rowStep_congr _ _ 24 (by decide) _ _ _
    (fun j' hj' => (Host.rowOf_of_lt _ r j' hj').trans (row23 V0 r j' hj')) j hj

/-- The result is the recursion of every row of the argument array. -/
theorem out_eq (V0 : Valuation τ sig (Elt F)) : out V0 = Host.lpc (V0 (Proc.devRef .tc main_arg0)) := by
  funext i
  rw [eq_ix2 i]
  exact out_apply V0 (i 0) (i 1).val (i 1).isLt

/-- The reference's run with its result named: every weakly fair execution terminates with the result array at `out`
    of the launch contents and the argument unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v182) = out (launchContents m c)
      ∧ r.2.mem ((c.tc : Thread nD τ).loc main_arg0) = m ((c.tc : Thread nD τ).loc main_arg0) :=
  Value.run m ρ

end Cert.ReferenceIdeal.Steps

end
-- ==== Proof.lean ====
/-
  The kernel and its reference compute, in every row of 25 coefficients, the same recursion: for `m = 2, …, 24` the
  entries `1 ≤ j < m` of the running row `a` become `a j + k m * a (m - j)`, where `k` is the row as given (its entry `m`
  is not yet overwritten at step `m`).  The reference does it on the whole array, slicing columns `1 … m-1`, reversing
  them, and writing the sum back with a scatter; the kernel does it block by block on tiles turned so that the
  coefficient axis comes first, building the reversed rows by stacking single rows.  Both apply the same sum and the same
  product in the same order at every entry, so no law of arithmetic joins the two sides: the result arrays are equal
  as functions, `Parcor.Host.lpc` of the argument array (the kernel: Proof/KernelValue.lean over the tile steps of
  Proof/TileStep.lean and the body's pieces of Proof/KernelPieces.lean; the reference: Proof/RefSteps.lean over
  Proof/HostStep.lean and the scatter read at an entry, Proof/LibScatterSet.lean).  The ideal pass rewrote nothing, so
  `preserves` is `True`; the precondition is not used.
-/
import proofs.«136782_j21878563405828_2_alg».proof.Defs
import proofs.«136782_j21878563405828_2_alg».proof.Proof.Gen.Kernel
import proofs.«136782_j21878563405828_2_alg».proof.Proof.Gen.KernelIdeal
import proofs.«136782_j21878563405828_2_alg».proof.Proof.Gen.ReferenceIdeal
import proofs.«136782_j21878563405828_2_alg».proof.Proof.Gen.Pre_finite_inputs
import proofs.«136782_j21878563405828_2_alg».proof.Proof.FrameKernel
import proofs.«136782_j21878563405828_2_alg».proof.Proof.FrameKernelIdeal
import proofs.«136782_j21878563405828_2_alg».proof.Proof.KernelValue
import proofs.«136782_j21878563405828_2_alg».proof.Proof.RefSteps
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Steps.run_out (F := Ideal) m ρ)

/-- Both result arrays are the recursion of every row of the argument array, and the argument arrays agree. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Steps.run_out (F := Ideal) m' ρ')
  rw [Cert.ReferenceIdeal.Steps.out_eq]
  exact congrArg Parcor.Host.lpc (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
